-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4x4096x4096 : Shape := ⟨3, ![4, 4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_

variable [Facts]

def fn {F : FTy → Type} [FloatOps F] (main_arg0 : FVec F S4096x4096 .f32) (main_arg1 : FVec F S4x4096x4096 .f32) (main_arg2 : IVec S4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  main_v8
-- ==== Kernel.lean ====
abbrev S4096x4096 : Shape := ⟨2, ![4096, 4096]⟩
abbrev S4x4096x4096 : Shape := ⟨3, ![4, 4096, 4096]⟩
abbrev S4096 : Shape := ⟨1, ![4096]⟩
abbrev S4096x1 : Shape := ⟨2, ![4096, 1]⟩
abbrev S1024x512 : Shape := ⟨2, ![1024, 512]⟩
abbrev S1x1024x512 : Shape := ⟨3, ![1, 1024, 512]⟩
abbrev S1024x1 : Shape := ⟨2, ![1024, 1]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4x4096x4096, .f32⟩
  | .hbm, ⟨2, _⟩ => ⟨S4096, .i32⟩
  | .hbm, ⟨3, _⟩ => ⟨S4096x1, .i32⟩
  | .hbm, ⟨4, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1024x1, .i32⟩
  | .local _ .vmem, ⟨5, _⟩ => ⟨S1024x1, .i32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 4, 4, 8], ![false, false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let arg3 : BitVec 32 := BitVec.ofNat 32 (i 3).val
  let c0_i32_0 : BitVec 32 := 0#32
  let v1 : BitVec 1 := Scalar.cmpi .eq arg3 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg3 : BitVec 32 := BitVec.ofNat 32 (i 3).val
  let c7_i32 : BitVec 32 := 7#32
  let v19 : BitVec 1 := Scalar.cmpi .eq arg3 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

class Facts₀ : Prop where
  shapeCasts_S4096_S4096x1 : S4096.ShapeCasts S4096x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  natLt_1_32 : 1 < 32
  broadcasts_S1024x1_S1024x1024 : S1024x1.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S4x4096x4096.size a
  hwx0_1 : ∀ i : grid0.Coords, EltTy.bits .f32 = 32 ∨ (Rect.block (s := S4x4096x4096) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond3 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4x4096x4096 : Shape := ⟨3, ![4, 4096, 4096]⟩
abbrev S4096 : Shape := ⟨1, ![4096]⟩
abbrev S_ : Shape := ⟨0, ![]⟩
abbrev S4096x1 : Shape := ⟨2, ![4096, 1]⟩
abbrev S1x4096x4096 : Shape := ⟨3, ![1, 4096, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x4096x4096, .f32⟩
  | .hbm, ⟨2, _⟩ => ⟨S4096, .i32⟩
  | .hbm, ⟨3, _⟩ => ⟨S_, .f32⟩
  | .hbm, ⟨4, _⟩ => ⟨S4096x4096, .f32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S4096x1, .i1⟩
  | .hbm, ⟨9, _⟩ => ⟨S4096x1, .f32⟩
  | .hbm, ⟨10, _⟩ => ⟨S1x4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096x1, .i1⟩
  | .hbm, ⟨20, _⟩ => ⟨S4096x1, .f32⟩
  | .hbm, ⟨21, _⟩ => ⟨S1x4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S4096x1, .i1⟩
  | .hbm, ⟨31, _⟩ => ⟨S4096x1, .f32⟩
  | .hbm, ⟨32, _⟩ => ⟨S1x4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096x1, .i1⟩
  | .hbm, ⟨42, _⟩ => ⟨S4096x1, .f32⟩
  | .hbm, ⟨43, _⟩ => ⟨S1x4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S4096x1_0 : S4096.BroadcastsInDim S4096x1 (![0] : Fin 1 → Fin S4096x1.rank)
  slices_S4x4096x4096_S1x4096x4096_0_0_0 : S4x4096x4096.Slices ![0, 0, 0] S1x4096x4096
  shapeCasts_S1x4096x4096_S4096x4096 : S1x4096x4096.ShapeCasts S4096x4096
  bcast_S4096x1_S4096x4096_0_1 : S4096x1.BroadcastsInDim S4096x4096 (![0, 1] : Fin 2 → Fin S4096x4096.rank)
  slices_S4x4096x4096_S1x4096x4096_1_0_0 : S4x4096x4096.Slices ![1, 0, 0] S1x4096x4096
  slices_S4x4096x4096_S1x4096x4096_2_0_0 : S4x4096x4096.Slices ![2, 0, 0] S1x4096x4096
  slices_S4x4096x4096_S1x4096x4096_3_0_0 : S4x4096x4096.Slices ![3, 0, 0] S1x4096x4096
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.K.Cases.lean ====
/-
  The four ways one grid point of the routed matmul can go, and what both frame proofs of `Kernel` share.

  The grid is (token tile i, output tile j, expert e, reduction step k), k fastest: point t has k = t mod 8,
  e = (t / 8) mod 4, and (i, j) = t / 32.  The body branches three times on the coordinates:
    * e = 0 and k = 0  (t ≡ 0 mod 32): the output tile is zeroed;
    * k = 0            (t ≡ 0 mod 8):  the per-expert accumulator is zeroed;
    * k = 7            (t ≡ 7 mod 8):  the accumulator, masked by "this token is routed to e", is added to the output tile.
  Between the second and the third it always adds x_tile · w_tileᵀ to the accumulator.  Only four of the eight
  truth assignments occur; they are named here by what happens to the two carried buffers.
-/
import proofs.«125423_j28973849379120_1_alg».proof.Proof.Gen.Kernel.Frame
import proofs.«125423_j28973849379120_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The three branch conditions as functions of the point -/

/-- "first step of the first expert": the output tile is reset here. -/
abbrev atTileStart (i : grid0.Coords) : Prop := k0_cond1 i = 1#1
/-- "first reduction step of an expert": the accumulator is reset here (the body's own scalar chain). -/
abbrev atExpertStart (i : grid0.Coords) : Prop :=
  (Scalar.cmpi .ne (Scalar.extui (Scalar.cmpi .eq (BitVec.ofNat 32 (i 3).val) 0#32)) 0#32) = 1#1
/-- "last reduction step of an expert": the masked accumulator is added to the output tile here. -/
abbrev atExpertEnd (i : grid0.Coords) : Prop := k0_cond3 i = 1#1

theorem atTileStart_iff : ∀ t : Fin cfg0.N, atTileStart (grid0.coords t) ↔ t.val % 32 = 0 :=
  (by decide +kernel : ∀ t : Fin grid0.N, atTileStart (grid0.coords t) ↔ t.val % 32 = 0)
theorem atExpertStart_iff : ∀ t : Fin cfg0.N, atExpertStart (grid0.coords t) ↔ t.val % 8 = 0 :=
  (by decide +kernel : ∀ t : Fin grid0.N, atExpertStart (grid0.coords t) ↔ t.val % 8 = 0)
theorem atExpertEnd_iff : ∀ t : Fin cfg0.N, atExpertEnd (grid0.coords t) ↔ t.val % 8 = 7 :=
  (by decide +kernel : ∀ t : Fin grid0.N, atExpertEnd (grid0.coords t) ↔ t.val % 8 = 7)

/-! ## Which windows the body stores into, point by point -/

theorem live_x : ∀ t : Fin cfg0.N, cfg0.idle 0 (grid0.coords t) = false := by decide +kernel
theorem live_w : ∀ t : Fin cfg0.N, cfg0.idle 1 (grid0.coords t) = false := by decide +kernel
theorem live_idx : ∀ t : Fin cfg0.N, cfg0.idle 2 (grid0.coords t) = false := by decide +kernel
/-- The output tile is left alone exactly at the points that neither reset it nor add to it. -/
theorem idle_out_iff : ∀ t : Fin cfg0.N, cfg0.idle 3 (grid0.coords t) = true ↔ (t.val % 32 ≠ 0 ∧ t.val % 8 ≠ 7) :=
  (by decide +kernel : ∀ t : Fin grid0.N, cfg0.idle 3 (grid0.coords t) = true ↔ (t.val % 32 ≠ 0 ∧ t.val % 8 ≠ 7))

/-! ## The buffers the body is called on -/

abbrev bufX (t : Fin cfg0.N) : Memref sig .tc .vmem S1024x512 .f32 := win0_0.stage (cfg0.slots t 0)
abbrev bufX_whole (t : Fin cfg0.N) : (bufX t).IsWhole := hstage0_0 ((cfg0.slots t 0).cast nbuf0_0)
abbrev bufW (t : Fin cfg0.N) : Memref sig .tc .vmem S1x1024x512 .f32 := win0_1.stage (cfg0.slots t 1)
abbrev bufW_whole (t : Fin cfg0.N) : (bufW t).IsWhole := hstage0_1 ((cfg0.slots t 1).cast nbuf0_1)
abbrev bufIdx (t : Fin cfg0.N) : Memref sig .tc .vmem S1024x1 .i32 := win0_2.stage (cfg0.slots t 2)
abbrev bufIdx_whole (t : Fin cfg0.N) : (bufIdx t).IsWhole := hstage0_2 ((cfg0.slots t 2).cast nbuf0_2)
abbrev bufOut (t : Fin cfg0.N) : Memref sig .tc .vmem S1024x1024 .f32 := win0_3.stage (cfg0.slots t 3)
abbrev bufOut_whole (t : Fin cfg0.N) : (bufOut t).IsWhole := hstage0_3 ((cfg0.slots t 3).cast nbuf0_3)
/-- The per-expert accumulator: the kernel's one scratch buffer. -/
abbrev accM : Memref sig .tc .vmem S1024x1024 .f32 := Memref.whole cc0_scratch0
abbrev accV : View sig .tc .vmem S1024x1024 .f32 := accM.view
/-- A view of the output tile's shape through which pieces are read back (any whole buffer of that shape serves). -/
abbrev outV : View sig .tc .vmem S1024x1024 .f32 := (Memref.whole cc0_stg3_0 : Memref sig .tc .vmem S1024x1024 .f32).view

/-- What the launch lends the body besides the windows: the accumulator at some contents, and the generator register. -/
theorem scratch_and_prng (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.K.RunTileStart.lean ====
/-
  A point that opens an output tile (expert 0, reduction step 0): the output tile is overwritten with zeros, the
  accumulator is overwritten with zeros and then receives the first partial product.
-/
import proofs.«125423_j28973849379120_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The body's triple at such a point, on any whole buffers: the three input tiles are read and handed back as they
    were; the stores the body makes into the two carried buffers are returned as lists of pieces (newest first). -/
noncomputable def runTileStart (c : Dev nD) (i : grid0.Coords) (arg4 : Memref sig .tc .vmem S1024x512 .f32) (harg4 : arg4.IsWhole) (arg5 : Memref sig .tc .vmem S1x1024x512 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole)
    (hs : atTileStart i) (he : atExpertStart i) (hn : ¬atExpertEnd i)
    (x0 : Vec F S1024x512 .f32) (x1 : Vec F S1x1024x512 .f32) (x2 : Vec F S1024x1 .i32) :
    Σ' (LO : List (View.Piece (Elt F) S1024x1024 .f32)), { LA : List (View.Piece (Elt F) S1024x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d)
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LA)) -∗ K ⟨⟩))
          ⊢ wp frame (wpE (defs₀ (F := F)) Variants.none c none) E (cc0__kernel i arg4 harg4 arg5 harg5 arg6 harg6 arg7 harg7 arg8 harg8) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg4.eq_unread hf0; obtain rfl := harg5.eq_unread hf1; obtain rfl := harg6.eq_unread hf2
    sl_exec (disch := first | exact hs | exact he | exact hn)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; iexact H3
    iexists _; iexact H4

end Cert.Kernel.Hand

end
-- ==== Proof.K.RunMiddle.lean ====
/-
  A point in the middle of an expert's reduction (step 1 to 6): the accumulator receives one more partial product;
  the output tile is not touched.
-/
import proofs.«125423_j28973849379120_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The body's triple at such a point, on any whole buffers: the three input tiles are read and handed back as they
    were; the stores the body makes into the two carried buffers are returned as lists of pieces (newest first). -/
noncomputable def runMiddle (c : Dev nD) (i : grid0.Coords) (arg4 : Memref sig .tc .vmem S1024x512 .f32) (harg4 : arg4.IsWhole) (arg5 : Memref sig .tc .vmem S1x1024x512 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole)
    (hs : ¬atTileStart i) (he : ¬atExpertStart i) (hn : ¬atExpertEnd i)
    (x0 : Vec F S1024x512 .f32) (x1 : Vec F S1x1024x512 .f32) (x2 : Vec F S1024x1 .i32) (a0 : Vec F S1024x1024 .f32) :
    { LA : List (View.Piece (Elt F) S1024x1024 .f32) //
      ∀ (o0 : Vec F S1024x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare o0 ∗ owns (c : Thread nD τ) arg8 fullShare a0
            ∗ (iprop(owns (c : Thread nD τ) arg4 fullShare x0 ∗ owns (c : Thread nD τ) arg5 fullShare x1 ∗ owns (c : Thread nD τ) arg6 fullShare x2 ∗ owns (c : Thread nD τ) arg7 fullShare o0 ∗ (∃ f, arg8.view.loc (c : Thread nD τ) ↦[arg8.view.set]{fullShare} arg8.view.writes (Elt F) f LA)) -∗ K ⟨⟩))
          ⊢ wp frame (wpE (defs₀ (F := F)) Variants.none c none) E (cc0__kernel i arg4 harg4 arg5 harg5 arg6 harg6 arg7 harg7 arg8 harg8) K } := by
  refine ⟨?_, fun o0 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg4.eq_unread hf0; obtain rfl := harg5.eq_unread hf1; obtain rfl := harg6.eq_unread hf2; obtain rfl := harg7.eq_unread hf3; obtain rfl := harg8.eq_unread hf4
    sl_exec (disch := first | exact hs | exact he | exact hn)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    iexists _; iexact H4

end Cert.Kernel.Hand

end
-- ==== Proof.K.RunExpertEnd.lean ====
/-
  A point that closes an expert's reduction (step 7): the accumulator receives the last partial product, and the
  output tile receives mask · accumulator on top of what it held.
-/
import proofs.«125423_j28973849379120_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The body's triple at such a point, on any whole buffers: the three input tiles are read and handed back as they
    were; the stores the body makes into the two carried buffers are returned as lists of pieces (newest first). -/
noncomputable def runExpertEnd (c : Dev nD) (i : grid0.Coords) (arg4 : Memref sig .tc .vmem S1024x512 .f32) (harg4 : arg4.IsWhole) (arg5 : Memref sig .tc .vmem S1x1024x512 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole)
    (hs : ¬atTileStart i) (he : ¬atExpertStart i) (hn : atExpertEnd i)
    (x0 : Vec F S1024x512 .f32) (x1 : Vec F S1x1024x512 .f32) (x2 : Vec F S1024x1 .i32) (o0 : Vec F S1024x1024 .f32) (a0 : Vec F S1024x1024 .f32) :
    Σ' (LO : List (View.Piece (Elt F) S1024x1024 .f32)), { LA : List (View.Piece (Elt F) S1024x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare o0 ∗ owns (c : Thread nD τ) arg8 fullShare a0
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LA)) -∗ K ⟨⟩))
          ⊢ wp frame (wpE (defs₀ (F := F)) Variants.none c none) E (cc0__kernel i arg4 harg4 arg5 harg5 arg6 harg6 arg7 harg7 arg8 harg8) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg4.eq_unread hf0; obtain rfl := harg5.eq_unread hf1; obtain rfl := harg6.eq_unread hf2; obtain rfl := harg7.eq_unread hf3; obtain rfl := harg8.eq_unread hf4
    sl_exec (disch := first | exact hs | exact he | exact hn)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; iexact H3
    iexists _; iexact H4

end Cert.Kernel.Hand

end
-- ==== Proof.K.RunExpertStart.lean ====
/-
  A point that opens a later expert's reduction (expert 1 to 3, step 0): the accumulator is overwritten with zeros
  and receives the first partial product; the output tile is not touched.
-/
import proofs.«125423_j28973849379120_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The body's triple at such a point, on any whole buffers: the three input tiles are read and handed back as they
    were; the stores the body makes into the two carried buffers are returned as lists of pieces (newest first). -/
noncomputable def runExpertStart (c : Dev nD) (i : grid0.Coords) (arg4 : Memref sig .tc .vmem S1024x512 .f32) (harg4 : arg4.IsWhole) (arg5 : Memref sig .tc .vmem S1x1024x512 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole)
    (hs : ¬atTileStart i) (he : atExpertStart i) (hn : ¬atExpertEnd i)
    (x0 : Vec F S1024x512 .f32) (x1 : Vec F S1x1024x512 .f32) (x2 : Vec F S1024x1 .i32) :
    { LA : List (View.Piece (Elt F) S1024x1024 .f32) //
      ∀ (o0 : Vec F S1024x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare o0 ∗ (∃ d, owns (c : Thread nD τ) arg8 fullShare d)
            ∗ (iprop(owns (c : Thread nD τ) arg4 fullShare x0 ∗ owns (c : Thread nD τ) arg5 fullShare x1 ∗ owns (c : Thread nD τ) arg6 fullShare x2 ∗ owns (c : Thread nD τ) arg7 fullShare o0 ∗ (∃ f, arg8.view.loc (c : Thread nD τ) ↦[arg8.view.set]{fullShare} arg8.view.writes (Elt F) f LA)) -∗ K ⟨⟩))
          ⊢ wp frame (wpE (defs₀ (F := F)) Variants.none c none) E (cc0__kernel i arg4 harg4 arg5 harg5 arg6 harg6 arg7 harg7 arg8 harg8) K } := by
  refine ⟨?_, fun o0 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg4.eq_unread hf0; obtain rfl := harg5.eq_unread hf1; obtain rfl := harg6.eq_unread hf2; obtain rfl := harg7.eq_unread hf3
    sl_exec (disch := first | exact hs | exact he | exact hn)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    iexists _; iexact H4

end Cert.Kernel.Hand

end
-- ==== Proof.K.Pieces.lean ====
/-
  What each kind of grid point leaves in the two buffers carried between points (the output tile and the per-expert
  accumulator): every store the body makes is of a whole 1024 × 1024 tile, so each list of stores covers its buffer,
  and the contents left are the stores read back.
-/
import proofs.«125423_j28973849379120_1_alg».proof.Proof.K.RunTileStart
import proofs.«125423_j28973849379120_1_alg».proof.Proof.K.RunMiddle
import proofs.«125423_j28973849379120_1_alg».proof.Proof.K.RunExpertEnd
import proofs.«125423_j28973849379120_1_alg».proof.Proof.K.RunExpertStart

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (c : Dev nD) (i : grid0.Coords) (arg4 : Memref sig .tc .vmem S1024x512 .f32) (harg4 : arg4.IsWhole) (arg5 : Memref sig .tc .vmem S1x1024x512 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole)

theorem tileStart_out_covers (hs : atTileStart i) (he : atExpertStart i) (hn : ¬atExpertEnd i) (x0 : Vec F S1024x512 .f32) (x1 : Vec F S1x1024x512 .f32) (x2 : Vec F S1024x1 .i32) (y : S1024x1024.Idx) :
    ∃ pc ∈ (runTileStart c i arg4 harg4 arg5 harg5 arg6 harg6 arg7 harg7 arg8 harg8 hs he hn x0 x1 x2).1, y ∈ pc.1.set :=
  View.cover_of_tiledL (runTileStart c i arg4 harg4 arg5 harg5 arg6 harg6 arg7 harg7 arg8 harg8 hs he hn x0 x1 x2).1 S1024x1024.size (by sl_kernel_rfl) y
theorem tileStart_acc_covers (hs : atTileStart i) (he : atExpertStart i) (hn : ¬atExpertEnd i) (x0 : Vec F S1024x512 .f32) (x1 : Vec F S1x1024x512 .f32) (x2 : Vec F S1024x1 .i32) (y : S1024x1024.Idx) :
    ∃ pc ∈ (runTileStart c i arg4 harg4 arg5 harg5 arg6 harg6 arg7 harg7 arg8 harg8 hs he hn x0 x1 x2).2.1, y ∈ pc.1.set :=
  View.cover_of_tiledL (runTileStart c i arg4 harg4 arg5 harg5 arg6 harg6 arg7 harg7 arg8 harg8 hs he hn x0 x1 x2).2.1 S1024x1024.size (by sl_kernel_rfl) y
theorem middle_acc_covers (hs : ¬atTileStart i) (he : ¬atExpertStart i) (hn : ¬atExpertEnd i) (x0 : Vec F S1024x512 .f32) (x1 : Vec F S1x1024x512 .f32) (x2 : Vec F S1024x1 .i32) (a0 : Vec F S1024x1024 .f32) (y : S1024x1024.Idx) :
    ∃ pc ∈ (runMiddle c i arg4 harg4 arg5 harg5 arg6 harg6 arg7 harg7 arg8 harg8 hs he hn x0 x1 x2 a0).1, y ∈ pc.1.set :=
  View.cover_of_tiledL (runMiddle c i arg4 harg4 arg5 harg5 arg6 harg6 arg7 harg7 arg8 harg8 hs he hn x0 x1 x2 a0).1 S1024x1024.size (by sl_kernel_rfl) y
theorem expertEnd_out_covers (hs : ¬atTileStart i) (he : ¬atExpertStart i) (hn : atExpertEnd i) (x0 : Vec F S1024x512 .f32) (x1 : Vec F S1x1024x512 .f32) (x2 : Vec F S1024x1 .i32) (o0 a0 : Vec F S1024x1024 .f32) (y : S1024x1024.Idx) :
    ∃ pc ∈ (runExpertEnd c i arg4 harg4 arg5 harg5 arg6 harg6 arg7 harg7 arg8 harg8 hs he hn x0 x1 x2 o0 a0).1, y ∈ pc.1.set :=
  View.cover_of_tiledL (runExpertEnd c i arg4 harg4 arg5 harg5 arg6 harg6 arg7 harg7 arg8 harg8 hs he hn x0 x1 x2 o0 a0).1 S1024x1024.size (by sl_kernel_rfl) y
theorem expertEnd_acc_covers (hs : ¬atTileStart i) (he : ¬atExpertStart i) (hn : atExpertEnd i) (x0 : Vec F S1024x512 .f32) (x1 : Vec F S1x1024x512 .f32) (x2 : Vec F S1024x1 .i32) (o0 a0 : Vec F S1024x1024 .f32) (y : S1024x1024.Idx) :
    ∃ pc ∈ (runExpertEnd c i arg4 harg4 arg5 harg5 arg6 harg6 arg7 harg7 arg8 harg8 hs he hn x0 x1 x2 o0 a0).2.1, y ∈ pc.1.set :=
  View.cover_of_tiledL (runExpertEnd c i arg4 harg4 arg5 harg5 arg6 harg6 arg7 harg7 arg8 harg8 hs he hn x0 x1 x2 o0 a0).2.1 S1024x1024.size (by sl_kernel_rfl) y
theorem expertStart_acc_covers (hs : ¬atTileStart i) (he : atExpertStart i) (hn : ¬atExpertEnd i) (x0 : Vec F S1024x512 .f32) (x1 : Vec F S1x1024x512 .f32) (x2 : Vec F S1024x1 .i32) (y : S1024x1024.Idx) :
    ∃ pc ∈ (runExpertStart c i arg4 harg4 arg5 harg5 arg6 harg6 arg7 harg7 arg8 harg8 hs he hn x0 x1 x2).1, y ∈ pc.1.set :=
  View.cover_of_tiledL (runExpertStart c i arg4 harg4 arg5 harg5 arg6 harg6 arg7 harg7 arg8 harg8 hs he hn x0 x1 x2).1 S1024x1024.size (by sl_kernel_rfl) y

/-- The contents those stores leave: the pieces read back (over contents that do not matter, the pieces covering). -/
def tileStartOut (hs : atTileStart i) (he : atExpertStart i) (hn : ¬atExpertEnd i) (x0 : Vec F S1024x512 .f32) (x1 : Vec F S1x1024x512 .f32) (x2 : Vec F S1024x1 .i32) : Vec F S1024x1024 .f32 :=
  outV.read (Elt F) (outV.writes (Elt F) outV.junk (runTileStart c i arg4 harg4 arg5 harg5 arg6 harg6 arg7 harg7 arg8 harg8 hs he hn x0 x1 x2).1)
def tileStartAcc (hs : atTileStart i) (he : atExpertStart i) (hn : ¬atExpertEnd i) (x0 : Vec F S1024x512 .f32) (x1 : Vec F S1x1024x512 .f32) (x2 : Vec F S1024x1 .i32) : Vec F S1024x1024 .f32 :=
  accV.read (Elt F) (accV.writes (Elt F) accV.junk (runTileStart c i arg4 harg4 arg5 harg5 arg6 harg6 arg7 harg7 arg8 harg8 hs he hn x0 x1 x2).2.1)
def middleAcc (hs : ¬atTileStart i) (he : ¬atExpertStart i) (hn : ¬atExpertEnd i) (x0 : Vec F S1024x512 .f32) (x1 : Vec F S1x1024x512 .f32) (x2 : Vec F S1024x1 .i32) (a0 : Vec F S1024x1024 .f32) : Vec F S1024x1024 .f32 :=
  accV.read (Elt F) (accV.writes (Elt F) accV.junk (runMiddle c i arg4 harg4 arg5 harg5 arg6 harg6 arg7 harg7 arg8 harg8 hs he hn x0 x1 x2 a0).1)
def expertEndOut (hs : ¬atTileStart i) (he : ¬atExpertStart i) (hn : atExpertEnd i) (x0 : Vec F S1024x512 .f32) (x1 : Vec F S1x1024x512 .f32) (x2 : Vec F S1024x1 .i32) (o0 a0 : Vec F S1024x1024 .f32) : Vec F S1024x1024 .f32 :=
  outV.read (Elt F) (outV.writes (Elt F) outV.junk (runExpertEnd c i arg4 harg4 arg5 harg5 arg6 harg6 arg7 harg7 arg8 harg8 hs he hn x0 x1 x2 o0 a0).1)
def expertEndAcc (hs : ¬atTileStart i) (he : ¬atExpertStart i) (hn : atExpertEnd i) (x0 : Vec F S1024x512 .f32) (x1 : Vec F S1x1024x512 .f32) (x2 : Vec F S1024x1 .i32) (o0 a0 : Vec F S1024x1024 .f32) : Vec F S1024x1024 .f32 :=
  accV.read (Elt F) (accV.writes (Elt F) accV.junk (runExpertEnd c i arg4 harg4 arg5 harg5 arg6 harg6 arg7 harg7 arg8 harg8 hs he hn x0 x1 x2 o0 a0).2.1)
def expertStartAcc (hs : ¬atTileStart i) (he : atExpertStart i) (hn : ¬atExpertEnd i) (x0 : Vec F S1024x512 .f32) (x1 : Vec F S1x1024x512 .f32) (x2 : Vec F S1024x1 .i32) : Vec F S1024x1024 .f32 :=
  accV.read (Elt F) (accV.writes (Elt F) accV.junk (runExpertStart c i arg4 harg4 arg5 harg5 arg6 harg6 arg7 harg7 arg8 harg8 hs he hn x0 x1 x2).1)

end Cert.Kernel.Hand

end
-- ==== Proof.K.Carried.lean ====
/-
  The two carried buffers, point by point, and the pipeline's proof data built on them.

  The output tile is written back to the result array only when its (i, j) tile is finished (every 32 points); the
  accumulator is the kernel's own scratch buffer.  What both hold after point n is defined by recursion on n
  (`carried`), following the four kinds of point.  The output tile is stored into only at two kinds of point; at the
  others the pipeline hands the body the tile as the previous point left it and takes it back unchanged, so "what the
  body finds in the output tile" is `carried (n - 1)` at every point that does not open a tile (`out_found`, by
  induction on the point).
-/
import proofs.«125423_j28973849379120_1_alg».proof.Proof.K.Pieces

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- (output tile, accumulator) after the body at position `n`. A point that opens a tile or an expert forgets the
    corresponding buffer; the others build on what position `n - 1` left. -/
def carried (c : Dev nD) : (n : ℕ) → n < cfg0.N → Vec F S1024x1024 .f32 × Vec F S1024x1024 .f32
  | 0, hn =>
    (tileStartOut c (grid0.coords ⟨0, hn⟩) (bufX ⟨0, hn⟩) (bufX_whole ⟨0, hn⟩) (bufW ⟨0, hn⟩) (bufW_whole ⟨0, hn⟩) (bufIdx ⟨0, hn⟩) (bufIdx_whole ⟨0, hn⟩) (bufOut ⟨0, hn⟩) (bufOut_whole ⟨0, hn⟩) accM (Memref.isWhole_whole _) ((atTileStart_iff ⟨0, hn⟩).mpr (Nat.zero_mod _)) ((atExpertStart_iff ⟨0, hn⟩).mpr (Nat.zero_mod _)) (fun h => by have := (atExpertEnd_iff ⟨0, hn⟩).mp h; dsimp only at this; omega) (iblk m c 0 ⟨0, hn⟩) (iblk m c 1 ⟨0, hn⟩) (iblk m c 2 ⟨0, hn⟩),
     tileStartAcc c (grid0.coords ⟨0, hn⟩) (bufX ⟨0, hn⟩) (bufX_whole ⟨0, hn⟩) (bufW ⟨0, hn⟩) (bufW_whole ⟨0, hn⟩) (bufIdx ⟨0, hn⟩) (bufIdx_whole ⟨0, hn⟩) (bufOut ⟨0, hn⟩) (bufOut_whole ⟨0, hn⟩) accM (Memref.isWhole_whole _) ((atTileStart_iff ⟨0, hn⟩).mpr (Nat.zero_mod _)) ((atExpertStart_iff ⟨0, hn⟩).mpr (Nat.zero_mod _)) (fun h => by have := (atExpertEnd_iff ⟨0, hn⟩).mp h; dsimp only at this; omega) (iblk m c 0 ⟨0, hn⟩) (iblk m c 1 ⟨0, hn⟩) (iblk m c 2 ⟨0, hn⟩))
  | n + 1, hn =>
    if h0 : (n + 1) % 32 = 0 then
      (tileStartOut c (grid0.coords ⟨n + 1, hn⟩) (bufX ⟨n + 1, hn⟩) (bufX_whole ⟨n + 1, hn⟩) (bufW ⟨n + 1, hn⟩) (bufW_whole ⟨n + 1, hn⟩) (bufIdx ⟨n + 1, hn⟩) (bufIdx_whole ⟨n + 1, hn⟩) (bufOut ⟨n + 1, hn⟩) (bufOut_whole ⟨n + 1, hn⟩) accM (Memref.isWhole_whole _) ((atTileStart_iff ⟨n + 1, hn⟩).mpr h0) ((atExpertStart_iff ⟨n + 1, hn⟩).mpr (by dsimp only; omega)) (fun h => by have := (atExpertEnd_iff ⟨n + 1, hn⟩).mp h; dsimp only at this; omega) (iblk m c 0 ⟨n + 1, hn⟩) (iblk m c 1 ⟨n + 1, hn⟩) (iblk m c 2 ⟨n + 1, hn⟩),
       tileStartAcc c (grid0.coords ⟨n + 1, hn⟩) (bufX ⟨n + 1, hn⟩) (bufX_whole ⟨n + 1, hn⟩) (bufW ⟨n + 1, hn⟩) (bufW_whole ⟨n + 1, hn⟩) (bufIdx ⟨n + 1, hn⟩) (bufIdx_whole ⟨n + 1, hn⟩) (bufOut ⟨n + 1, hn⟩) (bufOut_whole ⟨n + 1, hn⟩) accM (Memref.isWhole_whole _) ((atTileStart_iff ⟨n + 1, hn⟩).mpr h0) ((atExpertStart_iff ⟨n + 1, hn⟩).mpr (by dsimp only; omega)) (fun h => by have := (atExpertEnd_iff ⟨n + 1, hn⟩).mp h; dsimp only at this; omega) (iblk m c 0 ⟨n + 1, hn⟩) (iblk m c 1 ⟨n + 1, hn⟩) (iblk m c 2 ⟨n + 1, hn⟩))
    else if h1 : (n + 1) % 8 = 0 then
      ((carried c n (Nat.lt_of_succ_lt hn)).1,
       expertStartAcc c (grid0.coords ⟨n + 1, hn⟩) (bufX ⟨n + 1, hn⟩) (bufX_whole ⟨n + 1, hn⟩) (bufW ⟨n + 1, hn⟩) (bufW_whole ⟨n + 1, hn⟩) (bufIdx ⟨n + 1, hn⟩) (bufIdx_whole ⟨n + 1, hn⟩) (bufOut ⟨n + 1, hn⟩) (bufOut_whole ⟨n + 1, hn⟩) accM (Memref.isWhole_whole _) (fun h => h0 ((atTileStart_iff ⟨n + 1, hn⟩).mp h)) ((atExpertStart_iff ⟨n + 1, hn⟩).mpr h1) (fun h => by have := (atExpertEnd_iff ⟨n + 1, hn⟩).mp h; dsimp only at this; omega) (iblk m c 0 ⟨n + 1, hn⟩) (iblk m c 1 ⟨n + 1, hn⟩) (iblk m c 2 ⟨n + 1, hn⟩))
    else if h2 : (n + 1) % 8 = 7 then
      (expertEndOut c (grid0.coords ⟨n + 1, hn⟩) (bufX ⟨n + 1, hn⟩) (bufX_whole ⟨n + 1, hn⟩) (bufW ⟨n + 1, hn⟩) (bufW_whole ⟨n + 1, hn⟩) (bufIdx ⟨n + 1, hn⟩) (bufIdx_whole ⟨n + 1, hn⟩) (bufOut ⟨n + 1, hn⟩) (bufOut_whole ⟨n + 1, hn⟩) accM (Memref.isWhole_whole _) (fun h => h0 ((atTileStart_iff ⟨n + 1, hn⟩).mp h)) (fun h => h1 ((atExpertStart_iff ⟨n + 1, hn⟩).mp h)) ((atExpertEnd_iff ⟨n + 1, hn⟩).mpr h2) (iblk m c 0 ⟨n + 1, hn⟩) (iblk m c 1 ⟨n + 1, hn⟩) (iblk m c 2 ⟨n + 1, hn⟩) (carried c n (Nat.lt_of_succ_lt hn)).1 (carried c n (Nat.lt_of_succ_lt hn)).2,
       expertEndAcc c (grid0.coords ⟨n + 1, hn⟩) (bufX ⟨n + 1, hn⟩) (bufX_whole ⟨n + 1, hn⟩) (bufW ⟨n + 1, hn⟩) (bufW_whole ⟨n + 1, hn⟩) (bufIdx ⟨n + 1, hn⟩) (bufIdx_whole ⟨n + 1, hn⟩) (bufOut ⟨n + 1, hn⟩) (bufOut_whole ⟨n + 1, hn⟩) accM (Memref.isWhole_whole _) (fun h => h0 ((atTileStart_iff ⟨n + 1, hn⟩).mp h)) (fun h => h1 ((atExpertStart_iff ⟨n + 1, hn⟩).mp h)) ((atExpertEnd_iff ⟨n + 1, hn⟩).mpr h2) (iblk m c 0 ⟨n + 1, hn⟩) (iblk m c 1 ⟨n + 1, hn⟩) (iblk m c 2 ⟨n + 1, hn⟩) (carried c n (Nat.lt_of_succ_lt hn)).1 (carried c n (Nat.lt_of_succ_lt hn)).2)
    else
      ((carried c n (Nat.lt_of_succ_lt hn)).1,
       middleAcc c (grid0.coords ⟨n + 1, hn⟩) (bufX ⟨n + 1, hn⟩) (bufX_whole ⟨n + 1, hn⟩) (bufW ⟨n + 1, hn⟩) (bufW_whole ⟨n + 1, hn⟩) (bufIdx ⟨n + 1, hn⟩) (bufIdx_whole ⟨n + 1, hn⟩) (bufOut ⟨n + 1, hn⟩) (bufOut_whole ⟨n + 1, hn⟩) accM (Memref.isWhole_whole _) (fun h => h0 ((atTileStart_iff ⟨n + 1, hn⟩).mp h)) (fun h => h1 ((atExpertStart_iff ⟨n + 1, hn⟩).mp h)) (fun h => h2 ((atExpertEnd_iff ⟨n + 1, hn⟩).mp h)) (iblk m c 0 ⟨n + 1, hn⟩) (iblk m c 1 ⟨n + 1, hn⟩) (iblk m c 2 ⟨n + 1, hn⟩) (carried c n (Nat.lt_of_succ_lt hn)).2)

/-- The position before `t` (meaningful when `t` is not the first). -/
abbrev prev (t : Fin cfg0.N) : Fin cfg0.N := ⟨t.val - 1, Nat.lt_of_le_of_lt (Nat.sub_le _ _) t.isLt⟩

theorem carried_tileStart (c : Dev nD) (t : Fin cfg0.N) (h0 : t.val % 32 = 0) (hs : atTileStart (grid0.coords t)) (he : atExpertStart (grid0.coords t)) (hn : ¬atExpertEnd (grid0.coords t)) :
    carried m c t.val t.isLt = (tileStartOut c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t), tileStartAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t)) := by
  obtain ⟨n, hlt⟩ := t
  cases n with
  | zero => rfl
  | succ n => exact (dif_pos h0).trans rfl

theorem carried_expertStart (c : Dev nD) (t : Fin cfg0.N) (h0 : ¬t.val % 32 = 0) (h1 : t.val % 8 = 0) (hs : ¬atTileStart (grid0.coords t)) (he : atExpertStart (grid0.coords t)) (hn : ¬atExpertEnd (grid0.coords t)) :
    carried m c t.val t.isLt = ((carried m c (prev t).val (prev t).isLt).1, expertStartAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t)) := by
  obtain ⟨n, hlt⟩ := t
  cases n with
  | zero => exact absurd (Nat.zero_mod _) h0
  | succ n => exact (dif_neg h0).trans ((dif_pos h1).trans rfl)

theorem carried_expertEnd (c : Dev nD) (t : Fin cfg0.N) (h0 : ¬t.val % 32 = 0) (h1 : ¬t.val % 8 = 0) (h2 : t.val % 8 = 7) (hs : ¬atTileStart (grid0.coords t)) (he : ¬atExpertStart (grid0.coords t)) (hn : atExpertEnd (grid0.coords t)) :
    carried m c t.val t.isLt = (expertEndOut c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) (carried m c (prev t).val (prev t).isLt).1 (carried m c (prev t).val (prev t).isLt).2,
      expertEndAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) (carried m c (prev t).val (prev t).isLt).1 (carried m c (prev t).val (prev t).isLt).2) := by
  obtain ⟨n, hlt⟩ := t
  cases n with
  | zero => exact absurd (Nat.zero_mod _) h0
  | succ n => exact (dif_neg h0).trans ((dif_neg h1).trans ((dif_pos h2).trans rfl))

theorem carried_middle (c : Dev nD) (t : Fin cfg0.N) (h0 : ¬t.val % 32 = 0) (h1 : ¬t.val % 8 = 0) (h2 : ¬t.val % 8 = 7) (hs : ¬atTileStart (grid0.coords t)) (he : ¬atExpertStart (grid0.coords t)) (hn : ¬atExpertEnd (grid0.coords t)) :
    carried m c t.val t.isLt = ((carried m c (prev t).val (prev t).isLt).1,
      middleAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) (carried m c (prev t).val (prev t).isLt).2) := by
  obtain ⟨n, hlt⟩ := t
  cases n with
  | zero => exact absurd (Nat.zero_mod _) h0
  | succ n => exact (dif_neg h0).trans ((dif_neg h1).trans ((dif_neg h2).trans rfl))

/-- The same, buffer by buffer. -/
theorem out_tileStart (c : Dev nD) (t : Fin cfg0.N) (h0 : t.val % 32 = 0) (hs : atTileStart (grid0.coords t)) (he : atExpertStart (grid0.coords t)) (hn : ¬atExpertEnd (grid0.coords t)) :
    (carried m c t.val t.isLt).1 = tileStartOut c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) := by
  rw [carried_tileStart m c t h0 hs he hn]
theorem acc_tileStart (c : Dev nD) (t : Fin cfg0.N) (h0 : t.val % 32 = 0) (hs : atTileStart (grid0.coords t)) (he : atExpertStart (grid0.coords t)) (hn : ¬atExpertEnd (grid0.coords t)) :
    (carried m c t.val t.isLt).2 = tileStartAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) := by
  rw [carried_tileStart m c t h0 hs he hn]
theorem out_expertStart (c : Dev nD) (t : Fin cfg0.N) (h0 : ¬t.val % 32 = 0) (h1 : t.val % 8 = 0) (hs : ¬atTileStart (grid0.coords t)) (he : atExpertStart (grid0.coords t)) (hn : ¬atExpertEnd (grid0.coords t)) :
    (carried m c t.val t.isLt).1 = (carried m c (prev t).val (prev t).isLt).1 := by
  rw [carried_expertStart m c t h0 h1 hs he hn]
theorem acc_expertStart (c : Dev nD) (t : Fin cfg0.N) (h0 : ¬t.val % 32 = 0) (h1 : t.val % 8 = 0) (hs : ¬atTileStart (grid0.coords t)) (he : atExpertStart (grid0.coords t)) (hn : ¬atExpertEnd (grid0.coords t)) :
    (carried m c t.val t.isLt).2 = expertStartAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) := by
  rw [carried_expertStart m c t h0 h1 hs he hn]
theorem out_expertEnd (c : Dev nD) (t : Fin cfg0.N) (h0 : ¬t.val % 32 = 0) (h1 : ¬t.val % 8 = 0) (h2 : t.val % 8 = 7) (hs : ¬atTileStart (grid0.coords t)) (he : ¬atExpertStart (grid0.coords t)) (hn : atExpertEnd (grid0.coords t)) :
    (carried m c t.val t.isLt).1 = expertEndOut c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) (carried m c (prev t).val (prev t).isLt).1 (carried m c (prev t).val (prev t).isLt).2 := by
  rw [carried_expertEnd m c t h0 h1 h2 hs he hn]
theorem acc_expertEnd (c : Dev nD) (t : Fin cfg0.N) (h0 : ¬t.val % 32 = 0) (h1 : ¬t.val % 8 = 0) (h2 : t.val % 8 = 7) (hs : ¬atTileStart (grid0.coords t)) (he : ¬atExpertStart (grid0.coords t)) (hn : atExpertEnd (grid0.coords t)) :
    (carried m c t.val t.isLt).2 = expertEndAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) (carried m c (prev t).val (prev t).isLt).1 (carried m c (prev t).val (prev t).isLt).2 := by
  rw [carried_expertEnd m c t h0 h1 h2 hs he hn]
theorem out_middle (c : Dev nD) (t : Fin cfg0.N) (h0 : ¬t.val % 32 = 0) (h1 : ¬t.val % 8 = 0) (h2 : ¬t.val % 8 = 7) (hs : ¬atTileStart (grid0.coords t)) (he : ¬atExpertStart (grid0.coords t)) (hn : ¬atExpertEnd (grid0.coords t)) :
    (carried m c t.val t.isLt).1 = (carried m c (prev t).val (prev t).isLt).1 := by
  rw [carried_middle m c t h0 h1 h2 hs he hn]
theorem acc_middle (c : Dev nD) (t : Fin cfg0.N) (h0 : ¬t.val % 32 = 0) (h1 : ¬t.val % 8 = 0) (h2 : ¬t.val % 8 = 7) (hs : ¬atTileStart (grid0.coords t)) (he : ¬atExpertStart (grid0.coords t)) (hn : ¬atExpertEnd (grid0.coords t)) :
    (carried m c t.val t.isLt).2 = middleAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) (carried m c (prev t).val (prev t).isLt).2 := by
  rw [carried_middle m c t h0 h1 h2 hs he hn]

/-- What the body may use besides the windows, before position `n`: at first the accumulator at anything; later the
    accumulator at what the point before left in it. -/
def between (c : Dev nD) : (n : ℕ) → n ≤ cfg0.N → sProp 𝕄
  | 0, _ => Pipeline.ΦA spec0 c
  | n + 1, hn => iprop(iprop(owns (c : Thread nD τ) accM fullShare (carried m c n hn).2) ∗ (∃ r, prngReg c r))

theorem between_first (c : Dev nD) (n : ℕ) (h : n ≤ cfg0.N) (hz : n = 0) : between m c n h = Pipeline.ΦA spec0 c := by
  subst hz; rfl
theorem between_succ (c : Dev nD) (n : ℕ) (hn : n < cfg0.N) :
    between m c (n + 1) hn = iprop(iprop(owns (c : Thread nD τ) accM fullShare (carried m c n hn).2) ∗ (∃ r, prngReg c r)) := rfl
theorem between_later (c : Dev nD) (n : ℕ) (h : n ≤ cfg0.N) (hz : n ≠ 0) :
    between m c n h = iprop(iprop(owns (c : Thread nD τ) accM fullShare (carried m c (n - 1) (by omega)).2) ∗ (∃ r, prngReg c r)) := by
  cases n with
  | zero => exact absurd rfl hz
  | succ n => rfl

/-! ## The pipeline's proof data -/

/-- The arrays as the region finds them; after the body each input tile at its block and the output tile at
    `carried`; between points the accumulator as above; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (carried m c t.val t.isLt).1
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]
theorem between_castSucc (c : Dev nD) (t : Fin cfg0.N) :
    (dats m 0 c).Φ t.castSucc = between m c t.val (Nat.le_of_lt t.isLt) := by
  dsimp only [dats]; simp only [Fin.coe_castSucc]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_idx (c : Dev nD) (t : Fin cfg0.N) : (dats m 0 c).after 2 t = iblk m c 2 t := by dsimp only [dats]
theorem after_out (c : Dev nD) (t : Fin cfg0.N) : (dats m 0 c).after 3 t = (carried m c t.val t.isLt).1 := by dsimp only [dats]

theorem found_x (c : Dev nD) (t : Fin cfg0.N) (d) : (dats m 0 c).before 0 t d = iblk m c 0 t :=
  before0_0_of m (dats m 0 c) (A_eq m c 0) (after_x m c) t d
theorem found_w (c : Dev nD) (t : Fin cfg0.N) (d) : (dats m 0 c).before 1 t d = iblk m c 1 t :=
  before0_1_of m (dats m 0 c) (A_eq m c 1) (after_w m c) t d
theorem found_idx (c : Dev nD) (t : Fin cfg0.N) (d) : (dats m 0 c).before 2 t d = iblk m c 2 t :=
  before0_2_of m (dats m 0 c) (A_eq m c 2) (after_idx m c) t d

/-- At a point where the output tile is left alone, `carried`'s first component does not move. -/
theorem carried_out_idle (c : Dev nD) (t : Fin cfg0.N) (h0 : ¬t.val % 32 = 0) (h2 : ¬t.val % 8 = 7) :
    (carried m c t.val t.isLt).1 = (carried m c (prev t).val (prev t).isLt).1 := by
  by_cases h1 : t.val % 8 = 0
  · exact out_expertStart m c t h0 h1 (fun h => h0 ((atTileStart_iff t).mp h)) ((atExpertStart_iff t).mpr h1) (fun h => h2 ((atExpertEnd_iff t).mp h))
  · exact out_middle m c t h0 h1 h2 (fun h => h0 ((atTileStart_iff t).mp h)) (fun h => h1 ((atExpertStart_iff t).mp h)) (fun h => h2 ((atExpertEnd_iff t).mp h))

/-- What the next point finds in the output tile if this one does not write it back: `carried` here — through a point
    that leaves the tile alone, by what that point itself found. -/
theorem out_left (c : Dev nD) (t : Fin cfg0.N) (d)
    (ih : ¬t.val % 32 = 0 → (dats m 0 c).before 3 t d = (carried m c (prev t).val (prev t).isLt).1) :
    (dats m 0 c).left 3 t d = (carried m c t.val t.isLt).1 := by
  unfold Dat.left
  rcases Bool.eq_false_or_eq_true (cfg0.idle 3 (cfg0.grid.coords t)) with hi | hi
  · have h := (idle_out_iff t).mp hi
    rw [hi]; dsimp only
    rw [ih h.1, carried_out_idle m c t h.1 h.2]
  · rw [hi]; dsimp only
    unfold Dat.kept
    rw [Pipeline.fill_of_clip_none 3 _ (fun _ => rfl) d ((dats m 0 c).after 3 t), Window.fill_cut, after_out]

/-- At every point that does not open a tile, the body finds in the output tile what the point before left. -/
theorem out_found (c : Dev nD) : ∀ (n : ℕ) (hn : n < cfg0.N), ¬n % 32 = 0 → ∀ d,
    (dats m 0 c).before 3 ⟨n, hn⟩ d = (carried m c (prev ⟨n, hn⟩).val (prev ⟨n, hn⟩).isLt).1 := by
  intro n
  induction n with
  | zero => intro hn h; exact absurd (Nat.zero_mod _) h
  | succ k ih =>
    intro hn h d
    have hN : k + 1 < 512 := lt_of_lt_of_eq hn (show cfg0.N = 512 from N_0)
    have hfl : (cfg0.win 3).flush (prev ⟨k + 1, hn⟩) = false :=
      Bool.eq_false_iff.mpr fun hf => by have := (flush0_3 _).mp hf; dsimp only at this; omega
    rw [Dat.before_of_pos _ 3 ⟨k + 1, hn⟩ (Nat.succ_ne_zero k) ((cfg0.win 3).fetch_out rfl _) d, hfl, if_neg Bool.false_ne_true]
    exact out_left m c (prev ⟨k + 1, hn⟩) d (fun h' => ih (Nat.lt_of_succ_lt hn) h' d)

/-! ## What the body must hand back, window by window -/

theorem leaves_x (c : Dev nD) (t : Fin cfg0.N) : (dats m 0 c).leavesExact 0 t = owns (c : Thread nD τ) (bufX t) fullShare (iblk m c 0 t) := by
  unfold Dat.leavesExact; rw [live_x t, after_x]
theorem leaves_w (c : Dev nD) (t : Fin cfg0.N) : (dats m 0 c).leavesExact 1 t = owns (c : Thread nD τ) (bufW t) fullShare (iblk m c 1 t) := by
  unfold Dat.leavesExact; rw [live_w t, after_w]
theorem leaves_idx (c : Dev nD) (t : Fin cfg0.N) : (dats m 0 c).leavesExact 2 t = owns (c : Thread nD τ) (bufIdx t) fullShare (iblk m c 2 t) := by
  unfold Dat.leavesExact; rw [live_idx t, after_idx]
/-- Where the body stores into the output tile, it must leave `carried`; -/
theorem leaves_out_live (c : Dev nD) (t : Fin cfg0.N) (h : t.val % 32 = 0 ∨ t.val % 8 = 7) :
    (dats m 0 c).leavesExact 3 t = owns (c : Thread nD τ) (bufOut t) fullShare (carried m c t.val t.isLt).1 := by
  have hi : cfg0.idle 3 (cfg0.grid.coords t) = false :=
    Bool.eq_false_iff.mpr fun hi => by have := (idle_out_iff t).mp hi; omega
  unfold Dat.leavesExact; rw [hi, after_out]
/-- where it does not (such a point never writes the tile back), what it found. -/
theorem leaves_out_idle (c : Dev nD) (t : Fin cfg0.N) (h0 : ¬t.val % 32 = 0) (h2 : ¬t.val % 8 = 7) :
    (dats m 0 c).leavesExact 3 t = iprop(∃ d, owns (c : Thread nD τ) (bufOut t) fullShare ((dats m 0 c).before 3 t d)) := by
  have hN : t.val < 512 := lt_of_lt_of_eq t.isLt (show cfg0.N = 512 from N_0)
  exact Dat.leavesExact_idle _ 3 t ((idle_out_iff t).mpr ⟨h0, h2⟩)
    (Bool.eq_false_iff.mpr fun hf => by have := (flush0_3 t).mp hf; omega)

end Cert.Kernel.Hand

end
-- ==== Proof.K.Body.lean ====
/-
  The body at any grid point does what the pipeline's proof data says: which kind of point it is follows from the
  position; the inputs hold their blocks; the output tile, where the body reads it, holds what the point before left;
  the accumulator is handed over by the invariant between points and taken back at this point's contents.
-/
import proofs.«125423_j28973849379120_1_alg».proof.Proof.K.Carried

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (bufX t) fullShare ((dats m 0 c).before 0 t d))
    ∗ (∃ d, owns (c : Thread nD τ) (bufW t) fullShare ((dats m 0 c).before 1 t d))
    ∗ (∃ d, owns (c : Thread nD τ) (bufIdx t) fullShare ((dats m 0 c).before 2 t d))
    ∗ (∃ d, owns (c : Thread nD τ) (bufOut t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- Whatever the position, the invariant before it yields the accumulator at some contents. -/
theorem acc_at_anything (c : Dev nD) (t : Fin cfg0.N) :
    (dats m 0 c).Φ t.castSucc ⊢ (iprop(iprop(∃ d, owns (c : Thread nD τ) accM fullShare d) ∗ (∃ r, prngReg c r)) : sProp 𝕄) := by
  rw [between_castSucc m c t]
  by_cases hz : t.val = 0
  · rw [between_first m c _ _ hz, scratch_and_prng]
  · rw [between_later m c _ _ hz]
    iintro ⟨HS, Hg⟩
    isplitl [HS]
    · iexists _; iexact HS
    iexact Hg

set_option maxHeartbeats 1600000 in
/-- A tile opens: both carried buffers are overwritten. -/
theorem body_tileStart (c : Dev nD) (t : Fin cfg0.N) (h0 : t.val % 32 = 0) :
    bodyPre m c t ⊢ wp frame (wpE (defs₀ (F := F)) Variants.none c none) Set.univ (bodyAt0 t) (fun _ => bodyPost m c t) := by
  have hN : t.val < 512 := lt_of_lt_of_eq t.isLt (show cfg0.N = 512 from N_0)
  have hs := (atTileStart_iff t).mpr h0
  have he : atExpertStart (grid0.coords t) := (atExpertStart_iff t).mpr (by omega)
  have hn : ¬atExpertEnd (grid0.coords t) := fun h => by have := (atExpertEnd_iff t).mp h; omega
  unfold bodyPre bodyPost bodyAt0
  simp only [found_x, found_w, found_idx]
  rw [show (dats m 0 c).owesAt () t.succ = (dats m 0 c).owesAt () t.castSucc from rfl]
  rw [show (dats m 0 c).Φ t.succ = between m c (t.val + 1) t.isLt from rfl, between_succ]
  rw [leaves_x, leaves_w, leaves_idx]
  rw [leaves_out_live m c t (.inl h0), out_tileStart m c t h0 hs he hn, acc_tileStart m c t h0 hs he hn]
  unfold tileStartOut tileStartAcc
  iintro ⟨HΦ, Ho, ⟨%d0, H0⟩, ⟨%d1, H1⟩, ⟨%d2, H2⟩, ⟨%d3, H3⟩⟩
  ihave ⟨HS, Hg⟩ := (acc_at_anything m c t) $$ HΦ
  iapply ((runTileStart c (grid0.coords t) _ _ _ _ _ _ _ _ _ _ hs he hn (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%eo, H3⟩, ⟨%es, HS⟩⟩
  isplitl [HS Hg]
  · isplitl [HS]
    · unfold owns; iexists _; isplitr
      swap; · iexact HS
      ipureintro; exact View.read_writes_of_cover _ _ _ _ _ (tileStart_acc_covers c _ _ _ _ _ _ _ _ _ _ _ _ _ _ _ _ _)
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (tileStart_out_covers c _ _ _ _ _ _ _ _ _ _ _ _ _ _ _ _ _)

set_option maxHeartbeats 1600000 in
/-- A later expert opens: the accumulator is overwritten, the output tile left alone. -/
theorem body_expertStart (c : Dev nD) (t : Fin cfg0.N) (h0 : ¬t.val % 32 = 0) (h1 : t.val % 8 = 0) :
    bodyPre m c t ⊢ wp frame (wpE (defs₀ (F := F)) Variants.none c none) Set.univ (bodyAt0 t) (fun _ => bodyPost m c t) := by
  have hN : t.val < 512 := lt_of_lt_of_eq t.isLt (show cfg0.N = 512 from N_0)
  have hs : ¬atTileStart (grid0.coords t) := fun h => h0 ((atTileStart_iff t).mp h)
  have he := (atExpertStart_iff t).mpr h1
  have hn : ¬atExpertEnd (grid0.coords t) := fun h => by have := (atExpertEnd_iff t).mp h; omega
  unfold bodyPre bodyPost bodyAt0
  simp only [found_x, found_w, found_idx]
  rw [show (dats m 0 c).owesAt () t.succ = (dats m 0 c).owesAt () t.castSucc from rfl]
  rw [show (dats m 0 c).Φ t.succ = between m c (t.val + 1) t.isLt from rfl, between_succ]
  rw [leaves_x, leaves_w, leaves_idx]
  rw [leaves_out_idle m c t h0 (by omega), acc_expertStart m c t h0 h1 hs he hn]
  unfold expertStartAcc
  iintro ⟨HΦ, Ho, ⟨%d0, H0⟩, ⟨%d1, H1⟩, ⟨%d2, H2⟩, ⟨%d3, H3⟩⟩
  ihave ⟨HS, Hg⟩ := (acc_at_anything m c t) $$ HΦ
  iapply ((runExpertStart c (grid0.coords t) _ _ _ _ _ _ _ _ _ _ hs he hn (iblk m c 0 t) (iblk m c 1 t) (iblk m c 2 t)).2 _ Set.univ _)
  isplitl [H0]; · iexact H0
  isplitl [H1]; · iexact H1
  isplitl [H2]; · iexact H2
  isplitl [H3]; · iexact H3
  isplitl [HS]; · iexact HS
  iintro ⟨H0, H1, H2, H3, ⟨%es, HS⟩⟩
  isplitl [HS Hg]
  · isplitl [HS]
    · unfold owns; iexists _; isplitr
      swap; · iexact HS
      ipureintro; exact View.read_writes_of_cover _ _ _ _ _ (expertStart_acc_covers c _ _ _ _ _ _ _ _ _ _ _ _ _ _ _ _ _)
    iexact Hg
  isplitl [Ho]; · iexact Ho
  isplitl [H0]; · iexact H0
  isplitl [H1]; · iexact H1
  isplitl [H2]; · iexact H2
  iexists _; iexact H3

set_option maxHeartbeats 1600000 in
/-- An expert closes: the accumulator grows, and the output tile takes its masked copy on top of what it held. -/
theorem body_expertEnd (c : Dev nD) (t : Fin cfg0.N) (h0 : ¬t.val % 32 = 0) (h1 : ¬t.val % 8 = 0) (h2 : t.val % 8 = 7) :
    bodyPre m c t ⊢ wp frame (wpE (defs₀ (F := F)) Variants.none c none) Set.univ (bodyAt0 t) (fun _ => bodyPost m c t) := by
  have hs : ¬atTileStart (grid0.coords t) := fun h => h0 ((atTileStart_iff t).mp h)
  have he : ¬atExpertStart (grid0.coords t) := fun h => h1 ((atExpertStart_iff t).mp h)
  have hn := (atExpertEnd_iff t).mpr h2
  have hz : t.val ≠ 0 := fun hz => h0 (by rw [hz])
  unfold bodyPre bodyPost bodyAt0
  simp only [found_x, found_w, found_idx]
  rw [show (dats m 0 c).owesAt () t.succ = (dats m 0 c).owesAt () t.castSucc from rfl]
  rw [show (dats m 0 c).Φ t.succ = between m c (t.val + 1) t.isLt from rfl, between_succ]
  rw [leaves_x, leaves_w, leaves_idx]
  rw [between_castSucc m c t, between_later m c _ _ hz]
  rw [leaves_out_live m c t (.inr h2), out_expertEnd m c t h0 h1 h2 hs he hn, acc_expertEnd m c t h0 h1 h2 hs he hn]
  simp only [out_found m c t.val t.isLt h0]
  unfold expertEndOut expertEndAcc
  iintro ⟨⟨HS, Hg⟩, Ho, ⟨%d0, H0⟩, ⟨%d1, H1⟩, ⟨%d2, H2⟩, ⟨%d3, H3⟩⟩
  iapply ((runExpertEnd c (grid0.coords t) _ _ _ _ _ _ _ _ _ _ hs he hn (iblk m c 0 t) (iblk m c 1 t) (iblk m c 2 t) _ _).2.2 Set.univ _)
  isplitl [H0]; · iexact H0
  isplitl [H1]; · iexact H1
  isplitl [H2]; · iexact H2
  isplitl [H3]; · iexact H3
  isplitl [HS]; · iexact HS
  iintro ⟨H0, H1, H2, ⟨%eo, H3⟩, ⟨%es, HS⟩⟩
  isplitl [HS Hg]
  · isplitl [HS]
    · unfold owns; iexists _; isplitr
      swap; · iexact HS
      ipureintro; exact View.read_writes_of_cover _ _ _ _ _ (expertEnd_acc_covers c _ _ _ _ _ _ _ _ _ _ _ _ _ _ _ _ _ _ _)
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (expertEnd_out_covers c _ _ _ _ _ _ _ _ _ _ _ _ _ _ _ _ _ _ _)

set_option maxHeartbeats 1600000 in
/-- The middle of a reduction: the accumulator grows, the output tile is left alone. -/
theorem body_middle (c : Dev nD) (t : Fin cfg0.N) (h0 : ¬t.val % 32 = 0) (h1 : ¬t.val % 8 = 0) (h2 : ¬t.val % 8 = 7) :
    bodyPre m c t ⊢ wp frame (wpE (defs₀ (F := F)) Variants.none c none) Set.univ (bodyAt0 t) (fun _ => bodyPost m c t) := by
  have hs : ¬atTileStart (grid0.coords t) := fun h => h0 ((atTileStart_iff t).mp h)
  have he : ¬atExpertStart (grid0.coords t) := fun h => h1 ((atExpertStart_iff t).mp h)
  have hn : ¬atExpertEnd (grid0.coords t) := fun h => h2 ((atExpertEnd_iff t).mp h)
  have hz : t.val ≠ 0 := fun hz => h0 (by rw [hz])
  unfold bodyPre bodyPost bodyAt0
  simp only [found_x, found_w, found_idx]
  rw [show (dats m 0 c).owesAt () t.succ = (dats m 0 c).owesAt () t.castSucc from rfl]
  rw [show (dats m 0 c).Φ t.succ = between m c (t.val + 1) t.isLt from rfl, between_succ]
  rw [leaves_x, leaves_w, leaves_idx]
  rw [between_castSucc m c t, between_later m c _ _ hz]
  rw [leaves_out_idle m c t h0 h2, acc_middle m c t h0 h1 h2 hs he hn]
  unfold middleAcc
  iintro ⟨⟨HS, Hg⟩, Ho, ⟨%d0, H0⟩, ⟨%d1, H1⟩, ⟨%d2, H2⟩, ⟨%d3, H3⟩⟩
  iapply ((runMiddle c (grid0.coords t) _ _ _ _ _ _ _ _ _ _ hs he hn (iblk m c 0 t) (iblk m c 1 t) (iblk m c 2 t) _).2 _ Set.univ _)
  isplitl [H0]; · iexact H0
  isplitl [H1]; · iexact H1
  isplitl [H2]; · iexact H2
  isplitl [H3]; · iexact H3
  isplitl [HS]; · iexact HS
  iintro ⟨H0, H1, H2, H3, ⟨%es, HS⟩⟩
  isplitl [HS Hg]
  · isplitl [HS]
    · unfold owns; iexists _; isplitr
      swap; · iexact HS
      ipureintro; exact View.read_writes_of_cover _ _ _ _ _ (middle_acc_covers c _ _ _ _ _ _ _ _ _ _ _ _ _ _ _ _ _ _)
    iexact Hg
  isplitl [Ho]; · iexact Ho
  isplitl [H0]; · iexact H0
  isplitl [H1]; · iexact H1
  isplitl [H2]; · iexact H2
  iexists _; iexact H3

theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact body_tileStart m c t h0
  · by_cases h1 : t.val % 8 = 0
    · exact body_expertStart m c t h0 h1
    · by_cases h2 : t.val % 8 = 7
      · exact body_expertEnd m c t h0 h1 h2
      · exact body_middle m c t h0 h1 h2

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Frame.lean ====
/-
  The frame of `Kernel`: every fair execution ends, nothing faults, the argument arrays end as they were launched —
  with every windowed array named at the end (the result array among them: what the write-backs of the output tile
  make of it).
-/
import proofs.«125423_j28973849379120_1_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the invariant is what the launch lends; -/
theorem lend (c : Dev nD) : Pipeline.ΦA spec0 c ⊢ (dats m 0 c).Φ 0 := by
  rw [show (dats m 0 c).Φ 0 = between m c 0 (Nat.zero_le _) from rfl, between_first m c 0 _ rfl]
  try exact Idealize.SL.BI.Entails.refl _

/-- after the last it gives that back, the accumulator's contents forgotten. -/
theorem give_back (c : Dev nD) : (dats m 0 c).Φ (Fin.last cfg0.N) ⊢ Pipeline.ΦA spec0 c := by
  have hne : (Fin.last cfg0.N).val ≠ 0 := by rw [Fin.val_last]; have : cfg0.N = 512 := N_0; omega
  rw [show (dats m 0 c).Φ (Fin.last cfg0.N) = between m c (Fin.last cfg0.N).val (Nat.le_of_lt_succ (Fin.last cfg0.N).isLt) from rfl,
    between_later m c _ _ hne, scratch_and_prng]
  iintro ⟨HS, Hg⟩
  isplitl [HS]
  · iexists _; iexact HS
  iexact Hg

set_option backward.isDefEq.respectTransparency.types false in
/-- Every fair execution of the program ends without a fault; each windowed array ends at what the write-backs
    make of it, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := lend m) (hout := give_back m)

/-- The argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Cases.lean ====
/-
  The four ways one grid point of the routed matmul can go, and what both frame proofs of `KernelIdeal` share.

  The grid is (token tile i, output tile j, expert e, reduction step k), k fastest: point t has k = t mod 8,
  e = (t / 8) mod 4, and (i, j) = t / 32.  The body branches three times on the coordinates:
    * e = 0 and k = 0  (t ≡ 0 mod 32): the output tile is zeroed;
    * k = 0            (t ≡ 0 mod 8):  the per-expert accumulator is zeroed;
    * k = 7            (t ≡ 7 mod 8):  the accumulator, masked by "this token is routed to e", is added to the output tile.
  Between the second and the third it always adds x_tile · w_tileᵀ to the accumulator.  Only four of the eight
  truth assignments occur; they are named here by what happens to the two carried buffers.
-/
import proofs.«125423_j28973849379120_1_alg».proof.Proof.Gen.KernelIdeal.Frame
import proofs.«125423_j28973849379120_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The three branch conditions as functions of the point -/

/-- "first step of the first expert": the output tile is reset here. -/
abbrev atTileStart (i : grid0.Coords) : Prop := k0_cond1 i = 1#1
/-- "first reduction step of an expert": the accumulator is reset here (the body's own scalar chain). -/
abbrev atExpertStart (i : grid0.Coords) : Prop :=
  (Scalar.cmpi .ne (Scalar.extui (Scalar.cmpi .eq (BitVec.ofNat 32 (i 3).val) 0#32)) 0#32) = 1#1
/-- "last reduction step of an expert": the masked accumulator is added to the output tile here. -/
abbrev atExpertEnd (i : grid0.Coords) : Prop := k0_cond3 i = 1#1

theorem atTileStart_iff : ∀ t : Fin cfg0.N, atTileStart (grid0.coords t) ↔ t.val % 32 = 0 :=
  (by decide +kernel : ∀ t : Fin grid0.N, atTileStart (grid0.coords t) ↔ t.val % 32 = 0)
theorem atExpertStart_iff : ∀ t : Fin cfg0.N, atExpertStart (grid0.coords t) ↔ t.val % 8 = 0 :=
  (by decide +kernel : ∀ t : Fin grid0.N, atExpertStart (grid0.coords t) ↔ t.val % 8 = 0)
theorem atExpertEnd_iff : ∀ t : Fin cfg0.N, atExpertEnd (grid0.coords t) ↔ t.val % 8 = 7 :=
  (by decide +kernel : ∀ t : Fin grid0.N, atExpertEnd (grid0.coords t) ↔ t.val % 8 = 7)

/-! ## Which windows the body stores into, point by point -/

theorem live_x : ∀ t : Fin cfg0.N, cfg0.idle 0 (grid0.coords t) = false := by decide +kernel
theorem live_w : ∀ t : Fin cfg0.N, cfg0.idle 1 (grid0.coords t) = false := by decide +kernel
theorem live_idx : ∀ t : Fin cfg0.N, cfg0.idle 2 (grid0.coords t) = false := by decide +kernel
/-- The output tile is left alone exactly at the points that neither reset it nor add to it. -/
theorem idle_out_iff : ∀ t : Fin cfg0.N, cfg0.idle 3 (grid0.coords t) = true ↔ (t.val % 32 ≠ 0 ∧ t.val % 8 ≠ 7) :=
  (by decide +kernel : ∀ t : Fin grid0.N, cfg0.idle 3 (grid0.coords t) = true ↔ (t.val % 32 ≠ 0 ∧ t.val % 8 ≠ 7))

/-! ## The buffers the body is called on -/

abbrev bufX (t : Fin cfg0.N) : Memref sig .tc .vmem S1024x512 .f32 := win0_0.stage (cfg0.slots t 0)
abbrev bufX_whole (t : Fin cfg0.N) : (bufX t).IsWhole := hstage0_0 ((cfg0.slots t 0).cast nbuf0_0)
abbrev bufW (t : Fin cfg0.N) : Memref sig .tc .vmem S1x1024x512 .f32 := win0_1.stage (cfg0.slots t 1)
abbrev bufW_whole (t : Fin cfg0.N) : (bufW t).IsWhole := hstage0_1 ((cfg0.slots t 1).cast nbuf0_1)
abbrev bufIdx (t : Fin cfg0.N) : Memref sig .tc .vmem S1024x1 .i32 := win0_2.stage (cfg0.slots t 2)
abbrev bufIdx_whole (t : Fin cfg0.N) : (bufIdx t).IsWhole := hstage0_2 ((cfg0.slots t 2).cast nbuf0_2)
abbrev bufOut (t : Fin cfg0.N) : Memref sig .tc .vmem S1024x1024 .f32 := win0_3.stage (cfg0.slots t 3)
abbrev bufOut_whole (t : Fin cfg0.N) : (bufOut t).IsWhole := hstage0_3 ((cfg0.slots t 3).cast nbuf0_3)
/-- The per-expert accumulator: the kernel's one scratch buffer. -/
abbrev accM : Memref sig .tc .vmem S1024x1024 .f32 := Memref.whole cc0_scratch0
abbrev accV : View sig .tc .vmem S1024x1024 .f32 := accM.view
/-- A view of the output tile's shape through which pieces are read back (any whole buffer of that shape serves). -/
abbrev outV : View sig .tc .vmem S1024x1024 .f32 := (Memref.whole cc0_stg3_0 : Memref sig .tc .vmem S1024x1024 .f32).view

/-- What the launch lends the body besides the windows: the accumulator at some contents, and the generator register. -/
theorem scratch_and_prng (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KI.RunTileStart.lean ====
/-
  A point that opens an output tile (expert 0, reduction step 0): the output tile is overwritten with zeros, the
  accumulator is overwritten with zeros and then receives the first partial product.
-/
import proofs.«125423_j28973849379120_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The body's triple at such a point, on any whole buffers: the three input tiles are read and handed back as they
    were; the stores the body makes into the two carried buffers are returned as lists of pieces (newest first). -/
noncomputable def runTileStart (c : Dev nD) (i : grid0.Coords) (arg4 : Memref sig .tc .vmem S1024x512 .f32) (harg4 : arg4.IsWhole) (arg5 : Memref sig .tc .vmem S1x1024x512 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole)
    (hs : atTileStart i) (he : atExpertStart i) (hn : ¬atExpertEnd i)
    (x0 : Vec F S1024x512 .f32) (x1 : Vec F S1x1024x512 .f32) (x2 : Vec F S1024x1 .i32) :
    Σ' (LO : List (View.Piece (Elt F) S1024x1024 .f32)), { LA : List (View.Piece (Elt F) S1024x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d)
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LA)) -∗ K ⟨⟩))
          ⊢ wp frame (wpE (defs₀ (F := F)) Variants.none c none) E (cc0__kernel i arg4 harg4 arg5 harg5 arg6 harg6 arg7 harg7 arg8 harg8) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg4.eq_unread hf0; obtain rfl := harg5.eq_unread hf1; obtain rfl := harg6.eq_unread hf2
    sl_exec (disch := first | exact hs | exact he | exact hn)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; iexact H3
    iexists _; iexact H4

end Cert.KernelIdeal.Hand

end
-- ==== Proof.KI.RunMiddle.lean ====
/-
  A point in the middle of an expert's reduction (step 1 to 6): the accumulator receives one more partial product;
  the output tile is not touched.
-/
import proofs.«125423_j28973849379120_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The body's triple at such a point, on any whole buffers: the three input tiles are read and handed back as they
    were; the stores the body makes into the two carried buffers are returned as lists of pieces (newest first). -/
noncomputable def runMiddle (c : Dev nD) (i : grid0.Coords) (arg4 : Memref sig .tc .vmem S1024x512 .f32) (harg4 : arg4.IsWhole) (arg5 : Memref sig .tc .vmem S1x1024x512 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole)
    (hs : ¬atTileStart i) (he : ¬atExpertStart i) (hn : ¬atExpertEnd i)
    (x0 : Vec F S1024x512 .f32) (x1 : Vec F S1x1024x512 .f32) (x2 : Vec F S1024x1 .i32) (a0 : Vec F S1024x1024 .f32) :
    { LA : List (View.Piece (Elt F) S1024x1024 .f32) //
      ∀ (o0 : Vec F S1024x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare o0 ∗ owns (c : Thread nD τ) arg8 fullShare a0
            ∗ (iprop(owns (c : Thread nD τ) arg4 fullShare x0 ∗ owns (c : Thread nD τ) arg5 fullShare x1 ∗ owns (c : Thread nD τ) arg6 fullShare x2 ∗ owns (c : Thread nD τ) arg7 fullShare o0 ∗ (∃ f, arg8.view.loc (c : Thread nD τ) ↦[arg8.view.set]{fullShare} arg8.view.writes (Elt F) f LA)) -∗ K ⟨⟩))
          ⊢ wp frame (wpE (defs₀ (F := F)) Variants.none c none) E (cc0__kernel i arg4 harg4 arg5 harg5 arg6 harg6 arg7 harg7 arg8 harg8) K } := by
  refine ⟨?_, fun o0 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg4.eq_unread hf0; obtain rfl := harg5.eq_unread hf1; obtain rfl := harg6.eq_unread hf2; obtain rfl := harg7.eq_unread hf3; obtain rfl := harg8.eq_unread hf4
    sl_exec (disch := first | exact hs | exact he | exact hn)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    iexists _; iexact H4

end Cert.KernelIdeal.Hand

end
-- ==== Proof.KI.RunExpertEnd.lean ====
/-
  A point that closes an expert's reduction (step 7): the accumulator receives the last partial product, and the
  output tile receives mask · accumulator on top of what it held.
-/
import proofs.«125423_j28973849379120_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The body's triple at such a point, on any whole buffers: the three input tiles are read and handed back as they
    were; the stores the body makes into the two carried buffers are returned as lists of pieces (newest first). -/
noncomputable def runExpertEnd (c : Dev nD) (i : grid0.Coords) (arg4 : Memref sig .tc .vmem S1024x512 .f32) (harg4 : arg4.IsWhole) (arg5 : Memref sig .tc .vmem S1x1024x512 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole)
    (hs : ¬atTileStart i) (he : ¬atExpertStart i) (hn : atExpertEnd i)
    (x0 : Vec F S1024x512 .f32) (x1 : Vec F S1x1024x512 .f32) (x2 : Vec F S1024x1 .i32) (o0 : Vec F S1024x1024 .f32) (a0 : Vec F S1024x1024 .f32) :
    Σ' (LO : List (View.Piece (Elt F) S1024x1024 .f32)), { LA : List (View.Piece (Elt F) S1024x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare o0 ∗ owns (c : Thread nD τ) arg8 fullShare a0
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LA)) -∗ K ⟨⟩))
          ⊢ wp frame (wpE (defs₀ (F := F)) Variants.none c none) E (cc0__kernel i arg4 harg4 arg5 harg5 arg6 harg6 arg7 harg7 arg8 harg8) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg4.eq_unread hf0; obtain rfl := harg5.eq_unread hf1; obtain rfl := harg6.eq_unread hf2; obtain rfl := harg7.eq_unread hf3; obtain rfl := harg8.eq_unread hf4
    sl_exec (disch := first | exact hs | exact he | exact hn)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; iexact H3
    iexists _; iexact H4

end Cert.KernelIdeal.Hand

end
-- ==== Proof.KI.RunExpertStart.lean ====
/-
  A point that opens a later expert's reduction (expert 1 to 3, step 0): the accumulator is overwritten with zeros
  and receives the first partial product; the output tile is not touched.
-/
import proofs.«125423_j28973849379120_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The body's triple at such a point, on any whole buffers: the three input tiles are read and handed back as they
    were; the stores the body makes into the two carried buffers are returned as lists of pieces (newest first). -/
noncomputable def runExpertStart (c : Dev nD) (i : grid0.Coords) (arg4 : Memref sig .tc .vmem S1024x512 .f32) (harg4 : arg4.IsWhole) (arg5 : Memref sig .tc .vmem S1x1024x512 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole)
    (hs : ¬atTileStart i) (he : atExpertStart i) (hn : ¬atExpertEnd i)
    (x0 : Vec F S1024x512 .f32) (x1 : Vec F S1x1024x512 .f32) (x2 : Vec F S1024x1 .i32) :
    { LA : List (View.Piece (Elt F) S1024x1024 .f32) //
      ∀ (o0 : Vec F S1024x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare o0 ∗ (∃ d, owns (c : Thread nD τ) arg8 fullShare d)
            ∗ (iprop(owns (c : Thread nD τ) arg4 fullShare x0 ∗ owns (c : Thread nD τ) arg5 fullShare x1 ∗ owns (c : Thread nD τ) arg6 fullShare x2 ∗ owns (c : Thread nD τ) arg7 fullShare o0 ∗ (∃ f, arg8.view.loc (c : Thread nD τ) ↦[arg8.view.set]{fullShare} arg8.view.writes (Elt F) f LA)) -∗ K ⟨⟩))
          ⊢ wp frame (wpE (defs₀ (F := F)) Variants.none c none) E (cc0__kernel i arg4 harg4 arg5 harg5 arg6 harg6 arg7 harg7 arg8 harg8) K } := by
  refine ⟨?_, fun o0 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg4.eq_unread hf0; obtain rfl := harg5.eq_unread hf1; obtain rfl := harg6.eq_unread hf2; obtain rfl := harg7.eq_unread hf3
    sl_exec (disch := first | exact hs | exact he | exact hn)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    iexists _; iexact H4

end Cert.KernelIdeal.Hand

end
-- ==== Proof.KI.Pieces.lean ====
/-
  What each kind of grid point leaves in the two buffers carried between points (the output tile and the per-expert
  accumulator): every store the body makes is of a whole 1024 × 1024 tile, so each list of stores covers its buffer,
  and the contents left are the stores read back.
-/
import proofs.«125423_j28973849379120_1_alg».proof.Proof.KI.RunTileStart
import proofs.«125423_j28973849379120_1_alg».proof.Proof.KI.RunMiddle
import proofs.«125423_j28973849379120_1_alg».proof.Proof.KI.RunExpertEnd
import proofs.«125423_j28973849379120_1_alg».proof.Proof.KI.RunExpertStart

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (c : Dev nD) (i : grid0.Coords) (arg4 : Memref sig .tc .vmem S1024x512 .f32) (harg4 : arg4.IsWhole) (arg5 : Memref sig .tc .vmem S1x1024x512 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole)

theorem tileStart_out_covers (hs : atTileStart i) (he : atExpertStart i) (hn : ¬atExpertEnd i) (x0 : Vec F S1024x512 .f32) (x1 : Vec F S1x1024x512 .f32) (x2 : Vec F S1024x1 .i32) (y : S1024x1024.Idx) :
    ∃ pc ∈ (runTileStart c i arg4 harg4 arg5 harg5 arg6 harg6 arg7 harg7 arg8 harg8 hs he hn x0 x1 x2).1, y ∈ pc.1.set :=
  View.cover_of_tiledL (runTileStart c i arg4 harg4 arg5 harg5 arg6 harg6 arg7 harg7 arg8 harg8 hs he hn x0 x1 x2).1 S1024x1024.size (by sl_kernel_rfl) y
theorem tileStart_acc_covers (hs : atTileStart i) (he : atExpertStart i) (hn : ¬atExpertEnd i) (x0 : Vec F S1024x512 .f32) (x1 : Vec F S1x1024x512 .f32) (x2 : Vec F S1024x1 .i32) (y : S1024x1024.Idx) :
    ∃ pc ∈ (runTileStart c i arg4 harg4 arg5 harg5 arg6 harg6 arg7 harg7 arg8 harg8 hs he hn x0 x1 x2).2.1, y ∈ pc.1.set :=
  View.cover_of_tiledL (runTileStart c i arg4 harg4 arg5 harg5 arg6 harg6 arg7 harg7 arg8 harg8 hs he hn x0 x1 x2).2.1 S1024x1024.size (by sl_kernel_rfl) y
theorem middle_acc_covers (hs : ¬atTileStart i) (he : ¬atExpertStart i) (hn : ¬atExpertEnd i) (x0 : Vec F S1024x512 .f32) (x1 : Vec F S1x1024x512 .f32) (x2 : Vec F S1024x1 .i32) (a0 : Vec F S1024x1024 .f32) (y : S1024x1024.Idx) :
    ∃ pc ∈ (runMiddle c i arg4 harg4 arg5 harg5 arg6 harg6 arg7 harg7 arg8 harg8 hs he hn x0 x1 x2 a0).1, y ∈ pc.1.set :=
  View.cover_of_tiledL (runMiddle c i arg4 harg4 arg5 harg5 arg6 harg6 arg7 harg7 arg8 harg8 hs he hn x0 x1 x2 a0).1 S1024x1024.size (by sl_kernel_rfl) y
theorem expertEnd_out_covers (hs : ¬atTileStart i) (he : ¬atExpertStart i) (hn : atExpertEnd i) (x0 : Vec F S1024x512 .f32) (x1 : Vec F S1x1024x512 .f32) (x2 : Vec F S1024x1 .i32) (o0 a0 : Vec F S1024x1024 .f32) (y : S1024x1024.Idx) :
    ∃ pc ∈ (runExpertEnd c i arg4 harg4 arg5 harg5 arg6 harg6 arg7 harg7 arg8 harg8 hs he hn x0 x1 x2 o0 a0).1, y ∈ pc.1.set :=
  View.cover_of_tiledL (runExpertEnd c i arg4 harg4 arg5 harg5 arg6 harg6 arg7 harg7 arg8 harg8 hs he hn x0 x1 x2 o0 a0).1 S1024x1024.size (by sl_kernel_rfl) y
theorem expertEnd_acc_covers (hs : ¬atTileStart i) (he : ¬atExpertStart i) (hn : atExpertEnd i) (x0 : Vec F S1024x512 .f32) (x1 : Vec F S1x1024x512 .f32) (x2 : Vec F S1024x1 .i32) (o0 a0 : Vec F S1024x1024 .f32) (y : S1024x1024.Idx) :
    ∃ pc ∈ (runExpertEnd c i arg4 harg4 arg5 harg5 arg6 harg6 arg7 harg7 arg8 harg8 hs he hn x0 x1 x2 o0 a0).2.1, y ∈ pc.1.set :=
  View.cover_of_tiledL (runExpertEnd c i arg4 harg4 arg5 harg5 arg6 harg6 arg7 harg7 arg8 harg8 hs he hn x0 x1 x2 o0 a0).2.1 S1024x1024.size (by sl_kernel_rfl) y
theorem expertStart_acc_covers (hs : ¬atTileStart i) (he : atExpertStart i) (hn : ¬atExpertEnd i) (x0 : Vec F S1024x512 .f32) (x1 : Vec F S1x1024x512 .f32) (x2 : Vec F S1024x1 .i32) (y : S1024x1024.Idx) :
    ∃ pc ∈ (runExpertStart c i arg4 harg4 arg5 harg5 arg6 harg6 arg7 harg7 arg8 harg8 hs he hn x0 x1 x2).1, y ∈ pc.1.set :=
  View.cover_of_tiledL (runExpertStart c i arg4 harg4 arg5 harg5 arg6 harg6 arg7 harg7 arg8 harg8 hs he hn x0 x1 x2).1 S1024x1024.size (by sl_kernel_rfl) y

/-- The contents those stores leave: the pieces read back (over contents that do not matter, the pieces covering). -/
def tileStartOut (hs : atTileStart i) (he : atExpertStart i) (hn : ¬atExpertEnd i) (x0 : Vec F S1024x512 .f32) (x1 : Vec F S1x1024x512 .f32) (x2 : Vec F S1024x1 .i32) : Vec F S1024x1024 .f32 :=
  outV.read (Elt F) (outV.writes (Elt F) outV.junk (runTileStart c i arg4 harg4 arg5 harg5 arg6 harg6 arg7 harg7 arg8 harg8 hs he hn x0 x1 x2).1)
def tileStartAcc (hs : atTileStart i) (he : atExpertStart i) (hn : ¬atExpertEnd i) (x0 : Vec F S1024x512 .f32) (x1 : Vec F S1x1024x512 .f32) (x2 : Vec F S1024x1 .i32) : Vec F S1024x1024 .f32 :=
  accV.read (Elt F) (accV.writes (Elt F) accV.junk (runTileStart c i arg4 harg4 arg5 harg5 arg6 harg6 arg7 harg7 arg8 harg8 hs he hn x0 x1 x2).2.1)
def middleAcc (hs : ¬atTileStart i) (he : ¬atExpertStart i) (hn : ¬atExpertEnd i) (x0 : Vec F S1024x512 .f32) (x1 : Vec F S1x1024x512 .f32) (x2 : Vec F S1024x1 .i32) (a0 : Vec F S1024x1024 .f32) : Vec F S1024x1024 .f32 :=
  accV.read (Elt F) (accV.writes (Elt F) accV.junk (runMiddle c i arg4 harg4 arg5 harg5 arg6 harg6 arg7 harg7 arg8 harg8 hs he hn x0 x1 x2 a0).1)
def expertEndOut (hs : ¬atTileStart i) (he : ¬atExpertStart i) (hn : atExpertEnd i) (x0 : Vec F S1024x512 .f32) (x1 : Vec F S1x1024x512 .f32) (x2 : Vec F S1024x1 .i32) (o0 a0 : Vec F S1024x1024 .f32) : Vec F S1024x1024 .f32 :=
  outV.read (Elt F) (outV.writes (Elt F) outV.junk (runExpertEnd c i arg4 harg4 arg5 harg5 arg6 harg6 arg7 harg7 arg8 harg8 hs he hn x0 x1 x2 o0 a0).1)
def expertEndAcc (hs : ¬atTileStart i) (he : ¬atExpertStart i) (hn : atExpertEnd i) (x0 : Vec F S1024x512 .f32) (x1 : Vec F S1x1024x512 .f32) (x2 : Vec F S1024x1 .i32) (o0 a0 : Vec F S1024x1024 .f32) : Vec F S1024x1024 .f32 :=
  accV.read (Elt F) (accV.writes (Elt F) accV.junk (runExpertEnd c i arg4 harg4 arg5 harg5 arg6 harg6 arg7 harg7 arg8 harg8 hs he hn x0 x1 x2 o0 a0).2.1)
def expertStartAcc (hs : ¬atTileStart i) (he : atExpertStart i) (hn : ¬atExpertEnd i) (x0 : Vec F S1024x512 .f32) (x1 : Vec F S1x1024x512 .f32) (x2 : Vec F S1024x1 .i32) : Vec F S1024x1024 .f32 :=
  accV.read (Elt F) (accV.writes (Elt F) accV.junk (runExpertStart c i arg4 harg4 arg5 harg5 arg6 harg6 arg7 harg7 arg8 harg8 hs he hn x0 x1 x2).1)

end Cert.KernelIdeal.Hand

end
-- ==== Proof.KI.Carried.lean ====
/-
  The two carried buffers, point by point, and the pipeline's proof data built on them.

  The output tile is written back to the result array only when its (i, j) tile is finished (every 32 points); the
  accumulator is the kernel's own scratch buffer.  What both hold after point n is defined by recursion on n
  (`carried`), following the four kinds of point.  The output tile is stored into only at two kinds of point; at the
  others the pipeline hands the body the tile as the previous point left it and takes it back unchanged, so "what the
  body finds in the output tile" is `carried (n - 1)` at every point that does not open a tile (`out_found`, by
  induction on the point).
-/
import proofs.«125423_j28973849379120_1_alg».proof.Proof.KI.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- (output tile, accumulator) after the body at position `n`. A point that opens a tile or an expert forgets the
    corresponding buffer; the others build on what position `n - 1` left. -/
def carried (c : Dev nD) : (n : ℕ) → n < cfg0.N → Vec F S1024x1024 .f32 × Vec F S1024x1024 .f32
  | 0, hn =>
    (tileStartOut c (grid0.coords ⟨0, hn⟩) (bufX ⟨0, hn⟩) (bufX_whole ⟨0, hn⟩) (bufW ⟨0, hn⟩) (bufW_whole ⟨0, hn⟩) (bufIdx ⟨0, hn⟩) (bufIdx_whole ⟨0, hn⟩) (bufOut ⟨0, hn⟩) (bufOut_whole ⟨0, hn⟩) accM (Memref.isWhole_whole _) ((atTileStart_iff ⟨0, hn⟩).mpr (Nat.zero_mod _)) ((atExpertStart_iff ⟨0, hn⟩).mpr (Nat.zero_mod _)) (fun h => by have := (atExpertEnd_iff ⟨0, hn⟩).mp h; dsimp only at this; omega) (iblk m c 0 ⟨0, hn⟩) (iblk m c 1 ⟨0, hn⟩) (iblk m c 2 ⟨0, hn⟩),
     tileStartAcc c (grid0.coords ⟨0, hn⟩) (bufX ⟨0, hn⟩) (bufX_whole ⟨0, hn⟩) (bufW ⟨0, hn⟩) (bufW_whole ⟨0, hn⟩) (bufIdx ⟨0, hn⟩) (bufIdx_whole ⟨0, hn⟩) (bufOut ⟨0, hn⟩) (bufOut_whole ⟨0, hn⟩) accM (Memref.isWhole_whole _) ((atTileStart_iff ⟨0, hn⟩).mpr (Nat.zero_mod _)) ((atExpertStart_iff ⟨0, hn⟩).mpr (Nat.zero_mod _)) (fun h => by have := (atExpertEnd_iff ⟨0, hn⟩).mp h; dsimp only at this; omega) (iblk m c 0 ⟨0, hn⟩) (iblk m c 1 ⟨0, hn⟩) (iblk m c 2 ⟨0, hn⟩))
  | n + 1, hn =>
    if h0 : (n + 1) % 32 = 0 then
      (tileStartOut c (grid0.coords ⟨n + 1, hn⟩) (bufX ⟨n + 1, hn⟩) (bufX_whole ⟨n + 1, hn⟩) (bufW ⟨n + 1, hn⟩) (bufW_whole ⟨n + 1, hn⟩) (bufIdx ⟨n + 1, hn⟩) (bufIdx_whole ⟨n + 1, hn⟩) (bufOut ⟨n + 1, hn⟩) (bufOut_whole ⟨n + 1, hn⟩) accM (Memref.isWhole_whole _) ((atTileStart_iff ⟨n + 1, hn⟩).mpr h0) ((atExpertStart_iff ⟨n + 1, hn⟩).mpr (by dsimp only; omega)) (fun h => by have := (atExpertEnd_iff ⟨n + 1, hn⟩).mp h; dsimp only at this; omega) (iblk m c 0 ⟨n + 1, hn⟩) (iblk m c 1 ⟨n + 1, hn⟩) (iblk m c 2 ⟨n + 1, hn⟩),
       tileStartAcc c (grid0.coords ⟨n + 1, hn⟩) (bufX ⟨n + 1, hn⟩) (bufX_whole ⟨n + 1, hn⟩) (bufW ⟨n + 1, hn⟩) (bufW_whole ⟨n + 1, hn⟩) (bufIdx ⟨n + 1, hn⟩) (bufIdx_whole ⟨n + 1, hn⟩) (bufOut ⟨n + 1, hn⟩) (bufOut_whole ⟨n + 1, hn⟩) accM (Memref.isWhole_whole _) ((atTileStart_iff ⟨n + 1, hn⟩).mpr h0) ((atExpertStart_iff ⟨n + 1, hn⟩).mpr (by dsimp only; omega)) (fun h => by have := (atExpertEnd_iff ⟨n + 1, hn⟩).mp h; dsimp only at this; omega) (iblk m c 0 ⟨n + 1, hn⟩) (iblk m c 1 ⟨n + 1, hn⟩) (iblk m c 2 ⟨n + 1, hn⟩))
    else if h1 : (n + 1) % 8 = 0 then
      ((carried c n (Nat.lt_of_succ_lt hn)).1,
       expertStartAcc c (grid0.coords ⟨n + 1, hn⟩) (bufX ⟨n + 1, hn⟩) (bufX_whole ⟨n + 1, hn⟩) (bufW ⟨n + 1, hn⟩) (bufW_whole ⟨n + 1, hn⟩) (bufIdx ⟨n + 1, hn⟩) (bufIdx_whole ⟨n + 1, hn⟩) (bufOut ⟨n + 1, hn⟩) (bufOut_whole ⟨n + 1, hn⟩) accM (Memref.isWhole_whole _) (fun h => h0 ((atTileStart_iff ⟨n + 1, hn⟩).mp h)) ((atExpertStart_iff ⟨n + 1, hn⟩).mpr h1) (fun h => by have := (atExpertEnd_iff ⟨n + 1, hn⟩).mp h; dsimp only at this; omega) (iblk m c 0 ⟨n + 1, hn⟩) (iblk m c 1 ⟨n + 1, hn⟩) (iblk m c 2 ⟨n + 1, hn⟩))
    else if h2 : (n + 1) % 8 = 7 then
      (expertEndOut c (grid0.coords ⟨n + 1, hn⟩) (bufX ⟨n + 1, hn⟩) (bufX_whole ⟨n + 1, hn⟩) (bufW ⟨n + 1, hn⟩) (bufW_whole ⟨n + 1, hn⟩) (bufIdx ⟨n + 1, hn⟩) (bufIdx_whole ⟨n + 1, hn⟩) (bufOut ⟨n + 1, hn⟩) (bufOut_whole ⟨n + 1, hn⟩) accM (Memref.isWhole_whole _) (fun h => h0 ((atTileStart_iff ⟨n + 1, hn⟩).mp h)) (fun h => h1 ((atExpertStart_iff ⟨n + 1, hn⟩).mp h)) ((atExpertEnd_iff ⟨n + 1, hn⟩).mpr h2) (iblk m c 0 ⟨n + 1, hn⟩) (iblk m c 1 ⟨n + 1, hn⟩) (iblk m c 2 ⟨n + 1, hn⟩) (carried c n (Nat.lt_of_succ_lt hn)).1 (carried c n (Nat.lt_of_succ_lt hn)).2,
       expertEndAcc c (grid0.coords ⟨n + 1, hn⟩) (bufX ⟨n + 1, hn⟩) (bufX_whole ⟨n + 1, hn⟩) (bufW ⟨n + 1, hn⟩) (bufW_whole ⟨n + 1, hn⟩) (bufIdx ⟨n + 1, hn⟩) (bufIdx_whole ⟨n + 1, hn⟩) (bufOut ⟨n + 1, hn⟩) (bufOut_whole ⟨n + 1, hn⟩) accM (Memref.isWhole_whole _) (fun h => h0 ((atTileStart_iff ⟨n + 1, hn⟩).mp h)) (fun h => h1 ((atExpertStart_iff ⟨n + 1, hn⟩).mp h)) ((atExpertEnd_iff ⟨n + 1, hn⟩).mpr h2) (iblk m c 0 ⟨n + 1, hn⟩) (iblk m c 1 ⟨n + 1, hn⟩) (iblk m c 2 ⟨n + 1, hn⟩) (carried c n (Nat.lt_of_succ_lt hn)).1 (carried c n (Nat.lt_of_succ_lt hn)).2)
    else
      ((carried c n (Nat.lt_of_succ_lt hn)).1,
       middleAcc c (grid0.coords ⟨n + 1, hn⟩) (bufX ⟨n + 1, hn⟩) (bufX_whole ⟨n + 1, hn⟩) (bufW ⟨n + 1, hn⟩) (bufW_whole ⟨n + 1, hn⟩) (bufIdx ⟨n + 1, hn⟩) (bufIdx_whole ⟨n + 1, hn⟩) (bufOut ⟨n + 1, hn⟩) (bufOut_whole ⟨n + 1, hn⟩) accM (Memref.isWhole_whole _) (fun h => h0 ((atTileStart_iff ⟨n + 1, hn⟩).mp h)) (fun h => h1 ((atExpertStart_iff ⟨n + 1, hn⟩).mp h)) (fun h => h2 ((atExpertEnd_iff ⟨n + 1, hn⟩).mp h)) (iblk m c 0 ⟨n + 1, hn⟩) (iblk m c 1 ⟨n + 1, hn⟩) (iblk m c 2 ⟨n + 1, hn⟩) (carried c n (Nat.lt_of_succ_lt hn)).2)

/-- The position before `t` (meaningful when `t` is not the first). -/
abbrev prev (t : Fin cfg0.N) : Fin cfg0.N := ⟨t.val - 1, Nat.lt_of_le_of_lt (Nat.sub_le _ _) t.isLt⟩

theorem carried_tileStart (c : Dev nD) (t : Fin cfg0.N) (h0 : t.val % 32 = 0) (hs : atTileStart (grid0.coords t)) (he : atExpertStart (grid0.coords t)) (hn : ¬atExpertEnd (grid0.coords t)) :
    carried m c t.val t.isLt = (tileStartOut c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t), tileStartAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t)) := by
  obtain ⟨n, hlt⟩ := t
  cases n with
  | zero => rfl
  | succ n => exact (dif_pos h0).trans rfl

theorem carried_expertStart (c : Dev nD) (t : Fin cfg0.N) (h0 : ¬t.val % 32 = 0) (h1 : t.val % 8 = 0) (hs : ¬atTileStart (grid0.coords t)) (he : atExpertStart (grid0.coords t)) (hn : ¬atExpertEnd (grid0.coords t)) :
    carried m c t.val t.isLt = ((carried m c (prev t).val (prev t).isLt).1, expertStartAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t)) := by
  obtain ⟨n, hlt⟩ := t
  cases n with
  | zero => exact absurd (Nat.zero_mod _) h0
  | succ n => exact (dif_neg h0).trans ((dif_pos h1).trans rfl)

theorem carried_expertEnd (c : Dev nD) (t : Fin cfg0.N) (h0 : ¬t.val % 32 = 0) (h1 : ¬t.val % 8 = 0) (h2 : t.val % 8 = 7) (hs : ¬atTileStart (grid0.coords t)) (he : ¬atExpertStart (grid0.coords t)) (hn : atExpertEnd (grid0.coords t)) :
    carried m c t.val t.isLt = (expertEndOut c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) (carried m c (prev t).val (prev t).isLt).1 (carried m c (prev t).val (prev t).isLt).2,
      expertEndAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) (carried m c (prev t).val (prev t).isLt).1 (carried m c (prev t).val (prev t).isLt).2) := by
  obtain ⟨n, hlt⟩ := t
  cases n with
  | zero => exact absurd (Nat.zero_mod _) h0
  | succ n => exact (dif_neg h0).trans ((dif_neg h1).trans ((dif_pos h2).trans rfl))

theorem carried_middle (c : Dev nD) (t : Fin cfg0.N) (h0 : ¬t.val % 32 = 0) (h1 : ¬t.val % 8 = 0) (h2 : ¬t.val % 8 = 7) (hs : ¬atTileStart (grid0.coords t)) (he : ¬atExpertStart (grid0.coords t)) (hn : ¬atExpertEnd (grid0.coords t)) :
    carried m c t.val t.isLt = ((carried m c (prev t).val (prev t).isLt).1,
      middleAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) (carried m c (prev t).val (prev t).isLt).2) := by
  obtain ⟨n, hlt⟩ := t
  cases n with
  | zero => exact absurd (Nat.zero_mod _) h0
  | succ n => exact (dif_neg h0).trans ((dif_neg h1).trans ((dif_neg h2).trans rfl))

/-- The same, buffer by buffer. -/
theorem out_tileStart (c : Dev nD) (t : Fin cfg0.N) (h0 : t.val % 32 = 0) (hs : atTileStart (grid0.coords t)) (he : atExpertStart (grid0.coords t)) (hn : ¬atExpertEnd (grid0.coords t)) :
    (carried m c t.val t.isLt).1 = tileStartOut c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) := by
  rw [carried_tileStart m c t h0 hs he hn]
theorem acc_tileStart (c : Dev nD) (t : Fin cfg0.N) (h0 : t.val % 32 = 0) (hs : atTileStart (grid0.coords t)) (he : atExpertStart (grid0.coords t)) (hn : ¬atExpertEnd (grid0.coords t)) :
    (carried m c t.val t.isLt).2 = tileStartAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) := by
  rw [carried_tileStart m c t h0 hs he hn]
theorem out_expertStart (c : Dev nD) (t : Fin cfg0.N) (h0 : ¬t.val % 32 = 0) (h1 : t.val % 8 = 0) (hs : ¬atTileStart (grid0.coords t)) (he : atExpertStart (grid0.coords t)) (hn : ¬atExpertEnd (grid0.coords t)) :
    (carried m c t.val t.isLt).1 = (carried m c (prev t).val (prev t).isLt).1 := by
  rw [carried_expertStart m c t h0 h1 hs he hn]
theorem acc_expertStart (c : Dev nD) (t : Fin cfg0.N) (h0 : ¬t.val % 32 = 0) (h1 : t.val % 8 = 0) (hs : ¬atTileStart (grid0.coords t)) (he : atExpertStart (grid0.coords t)) (hn : ¬atExpertEnd (grid0.coords t)) :
    (carried m c t.val t.isLt).2 = expertStartAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) := by
  rw [carried_expertStart m c t h0 h1 hs he hn]
theorem out_expertEnd (c : Dev nD) (t : Fin cfg0.N) (h0 : ¬t.val % 32 = 0) (h1 : ¬t.val % 8 = 0) (h2 : t.val % 8 = 7) (hs : ¬atTileStart (grid0.coords t)) (he : ¬atExpertStart (grid0.coords t)) (hn : atExpertEnd (grid0.coords t)) :
    (carried m c t.val t.isLt).1 = expertEndOut c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) (carried m c (prev t).val (prev t).isLt).1 (carried m c (prev t).val (prev t).isLt).2 := by
  rw [carried_expertEnd m c t h0 h1 h2 hs he hn]
theorem acc_expertEnd (c : Dev nD) (t : Fin cfg0.N) (h0 : ¬t.val % 32 = 0) (h1 : ¬t.val % 8 = 0) (h2 : t.val % 8 = 7) (hs : ¬atTileStart (grid0.coords t)) (he : ¬atExpertStart (grid0.coords t)) (hn : atExpertEnd (grid0.coords t)) :
    (carried m c t.val t.isLt).2 = expertEndAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) (carried m c (prev t).val (prev t).isLt).1 (carried m c (prev t).val (prev t).isLt).2 := by
  rw [carried_expertEnd m c t h0 h1 h2 hs he hn]
theorem out_middle (c : Dev nD) (t : Fin cfg0.N) (h0 : ¬t.val % 32 = 0) (h1 : ¬t.val % 8 = 0) (h2 : ¬t.val % 8 = 7) (hs : ¬atTileStart (grid0.coords t)) (he : ¬atExpertStart (grid0.coords t)) (hn : ¬atExpertEnd (grid0.coords t)) :
    (carried m c t.val t.isLt).1 = (carried m c (prev t).val (prev t).isLt).1 := by
  rw [carried_middle m c t h0 h1 h2 hs he hn]
theorem acc_middle (c : Dev nD) (t : Fin cfg0.N) (h0 : ¬t.val % 32 = 0) (h1 : ¬t.val % 8 = 0) (h2 : ¬t.val % 8 = 7) (hs : ¬atTileStart (grid0.coords t)) (he : ¬atExpertStart (grid0.coords t)) (hn : ¬atExpertEnd (grid0.coords t)) :
    (carried m c t.val t.isLt).2 = middleAcc c (grid0.coords t) (bufX t) (bufX_whole t) (bufW t) (bufW_whole t) (bufIdx t) (bufIdx_whole t) (bufOut t) (bufOut_whole t) accM (Memref.isWhole_whole _) hs he hn (iblk m c 0 t) (iblk m c 1 t) (iblk m c 2 t) (carried m c (prev t).val (prev t).isLt).2 := by
  rw [carried_middle m c t h0 h1 h2 hs he hn]

/-- What the body may use besides the windows, before position `n`: at first the accumulator at anything; later the
    accumulator at what the point before left in it. -/
def between (c : Dev nD) : (n : ℕ) → n ≤ cfg0.N → sProp 𝕄
  | 0, _ => Pipeline.ΦA spec0 c
  | n + 1, hn => iprop(iprop(owns (c : Thread nD τ) accM fullShare (carried m c n hn).2) ∗ (∃ r, prngReg c r))

theorem between_first (c : Dev nD) (n : ℕ) (h : n ≤ cfg0.N) (hz : n = 0) : between m c n h = Pipeline.ΦA spec0 c := by
  subst hz; rfl
theorem between_succ (c : Dev nD) (n : ℕ) (hn : n < cfg0.N) :
    between m c (n + 1) hn = iprop(iprop(owns (c : Thread nD τ) accM fullShare (carried m c n hn).2) ∗ (∃ r, prngReg c r)) := rfl
theorem between_later (c : Dev nD) (n : ℕ) (h : n ≤ cfg0.N) (hz : n ≠ 0) :
    between m c n h = iprop(iprop(owns (c : Thread nD τ) accM fullShare (carried m c (n - 1) (by omega)).2) ∗ (∃ r, prngReg c r)) := by
  cases n with
  | zero => exact absurd rfl hz
  | succ n => rfl

/-! ## The pipeline's proof data -/

/-- The arrays as the region finds them; after the body each input tile at its block and the output tile at
    `carried`; between points the accumulator as above; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (carried m c t.val t.isLt).1
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]
theorem between_castSucc (c : Dev nD) (t : Fin cfg0.N) :
    (dats m 0 c).Φ t.castSucc = between m c t.val (Nat.le_of_lt t.isLt) := by
  dsimp only [dats]; simp only [Fin.coe_castSucc]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_idx (c : Dev nD) (t : Fin cfg0.N) : (dats m 0 c).after 2 t = iblk m c 2 t := by dsimp only [dats]
theorem after_out (c : Dev nD) (t : Fin cfg0.N) : (dats m 0 c).after 3 t = (carried m c t.val t.isLt).1 := by dsimp only [dats]

theorem found_x (c : Dev nD) (t : Fin cfg0.N) (d) : (dats m 0 c).before 0 t d = iblk m c 0 t :=
  before0_0_of m (dats m 0 c) (A_eq m c 0) (after_x m c) t d
theorem found_w (c : Dev nD) (t : Fin cfg0.N) (d) : (dats m 0 c).before 1 t d = iblk m c 1 t :=
  before0_1_of m (dats m 0 c) (A_eq m c 1) (after_w m c) t d
theorem found_idx (c : Dev nD) (t : Fin cfg0.N) (d) : (dats m 0 c).before 2 t d = iblk m c 2 t :=
  before0_2_of m (dats m 0 c) (A_eq m c 2) (after_idx m c) t d

/-- At a point where the output tile is left alone, `carried`'s first component does not move. -/
theorem carried_out_idle (c : Dev nD) (t : Fin cfg0.N) (h0 : ¬t.val % 32 = 0) (h2 : ¬t.val % 8 = 7) :
    (carried m c t.val t.isLt).1 = (carried m c (prev t).val (prev t).isLt).1 := by
  by_cases h1 : t.val % 8 = 0
  · exact out_expertStart m c t h0 h1 (fun h => h0 ((atTileStart_iff t).mp h)) ((atExpertStart_iff t).mpr h1) (fun h => h2 ((atExpertEnd_iff t).mp h))
  · exact out_middle m c t h0 h1 h2 (fun h => h0 ((atTileStart_iff t).mp h)) (fun h => h1 ((atExpertStart_iff t).mp h)) (fun h => h2 ((atExpertEnd_iff t).mp h))

/-- What the next point finds in the output tile if this one does not write it back: `carried` here — through a point
    that leaves the tile alone, by what that point itself found. -/
theorem out_left (c : Dev nD) (t : Fin cfg0.N) (d)
    (ih : ¬t.val % 32 = 0 → (dats m 0 c).before 3 t d = (carried m c (prev t).val (prev t).isLt).1) :
    (dats m 0 c).left 3 t d = (carried m c t.val t.isLt).1 := by
  unfold Dat.left
  rcases Bool.eq_false_or_eq_true (cfg0.idle 3 (cfg0.grid.coords t)) with hi | hi
  · have h := (idle_out_iff t).mp hi
    rw [hi]; dsimp only
    rw [ih h.1, carried_out_idle m c t h.1 h.2]
  · rw [hi]; dsimp only
    unfold Dat.kept
    rw [Pipeline.fill_of_clip_none 3 _ (fun _ => rfl) d ((dats m 0 c).after 3 t), Window.fill_cut, after_out]

/-- At every point that does not open a tile, the body finds in the output tile what the point before left. -/
theorem out_found (c : Dev nD) : ∀ (n : ℕ) (hn : n < cfg0.N), ¬n % 32 = 0 → ∀ d,
    (dats m 0 c).before 3 ⟨n, hn⟩ d = (carried m c (prev ⟨n, hn⟩).val (prev ⟨n, hn⟩).isLt).1 := by
  intro n
  induction n with
  | zero => intro hn h; exact absurd (Nat.zero_mod _) h
  | succ k ih =>
    intro hn h d
    have hN : k + 1 < 512 := lt_of_lt_of_eq hn (show cfg0.N = 512 from N_0)
    have hfl : (cfg0.win 3).flush (prev ⟨k + 1, hn⟩) = false :=
      Bool.eq_false_iff.mpr fun hf => by have := (flush0_3 _).mp hf; dsimp only at this; omega
    rw [Dat.before_of_pos _ 3 ⟨k + 1, hn⟩ (Nat.succ_ne_zero k) ((cfg0.win 3).fetch_out rfl _) d, hfl, if_neg Bool.false_ne_true]
    exact out_left m c (prev ⟨k + 1, hn⟩) d (fun h' => ih (Nat.lt_of_succ_lt hn) h' d)

/-! ## What the body must hand back, window by window -/

theorem leaves_x (c : Dev nD) (t : Fin cfg0.N) : (dats m 0 c).leavesExact 0 t = owns (c : Thread nD τ) (bufX t) fullShare (iblk m c 0 t) := by
  unfold Dat.leavesExact; rw [live_x t, after_x]
theorem leaves_w (c : Dev nD) (t : Fin cfg0.N) : (dats m 0 c).leavesExact 1 t = owns (c : Thread nD τ) (bufW t) fullShare (iblk m c 1 t) := by
  unfold Dat.leavesExact; rw [live_w t, after_w]
theorem leaves_idx (c : Dev nD) (t : Fin cfg0.N) : (dats m 0 c).leavesExact 2 t = owns (c : Thread nD τ) (bufIdx t) fullShare (iblk m c 2 t) := by
  unfold Dat.leavesExact; rw [live_idx t, after_idx]
/-- Where the body stores into the output tile, it must leave `carried`; -/
theorem leaves_out_live (c : Dev nD) (t : Fin cfg0.N) (h : t.val % 32 = 0 ∨ t.val % 8 = 7) :
    (dats m 0 c).leavesExact 3 t = owns (c : Thread nD τ) (bufOut t) fullShare (carried m c t.val t.isLt).1 := by
  have hi : cfg0.idle 3 (cfg0.grid.coords t) = false :=
    Bool.eq_false_iff.mpr fun hi => by have := (idle_out_iff t).mp hi; omega
  unfold Dat.leavesExact; rw [hi, after_out]
/-- where it does not (such a point never writes the tile back), what it found. -/
theorem leaves_out_idle (c : Dev nD) (t : Fin cfg0.N) (h0 : ¬t.val % 32 = 0) (h2 : ¬t.val % 8 = 7) :
    (dats m 0 c).leavesExact 3 t = iprop(∃ d, owns (c : Thread nD τ) (bufOut t) fullShare ((dats m 0 c).before 3 t d)) := by
  have hN : t.val < 512 := lt_of_lt_of_eq t.isLt (show cfg0.N = 512 from N_0)
  exact Dat.leavesExact_idle _ 3 t ((idle_out_iff t).mpr ⟨h0, h2⟩)
    (Bool.eq_false_iff.mpr fun hf => by have := (flush0_3 t).mp hf; omega)

end Cert.KernelIdeal.Hand

end
-- ==== Proof.KI.PieceValues.lean ====
/-
  What each kind of point leaves, as values: every store is of a whole tile, so a buffer ends at the payload of the
  last store into it, the loads under that payload reading whole buffers:
    tile start:    output := 0,                          accumulator := 0 + x·wᵀ
    expert start:                                        accumulator := 0 + x·wᵀ
    middle:                                              accumulator := accumulator + x·wᵀ
    expert end:    output := output + mask · acc',       accumulator := acc' = accumulator + x·wᵀ
  (the payloads are the body's own arithmetic, named by the skeleton: zero tiles, "add the tile product", "add the
  masked accumulator").
-/
import proofs.«125423_j28973849379120_1_alg».proof.Proof.KI.Carried
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

section
variable (c : Dev nD) (i : grid0.Coords) (arg4 : Memref sig .tc .vmem S1024x512 .f32) (harg4 : arg4.IsWhole) (arg5 : Memref sig .tc .vmem S1x1024x512 .f32) (harg5 : arg5.IsWhole) (arg6 : Memref sig .tc .vmem S1024x1 .i32) (harg6 : arg6.IsWhole) (arg7 : Memref sig .tc .vmem S1024x1024 .f32) (harg7 : arg7.IsWhole) (arg8 : Memref sig .tc .vmem S1024x1024 .f32) (harg8 : arg8.IsWhole)

theorem tileStartOut_eq (hs : atTileStart i) (he : atExpertStart i) (hn : ¬atExpertEnd i) (x0 : Vec F S1024x512 .f32) (x1 : Vec F S1x1024x512 .f32) (x2 : Vec F S1024x1 .i32) :
    tileStartOut c i arg4 harg4 arg5 harg5 arg6 harg6 arg7 harg7 arg8 harg8 hs he hn x0 x1 x2 = k0_pay1 (F := F) := by
  unfold tileStartOut
  rw [View.read_writes_eq_canon _ _ _ (tileStart_out_covers c i arg4 harg4 arg5 harg5 arg6 harg6 arg7 harg7 arg8 harg8 hs he hn x0 x1 x2)]
  unfold runTileStart
  dsimp only
  sl_unfold_words
  rw [View.canon_unit_zero (S := S1024x1024) zero2]

theorem tileStartAcc_eq (hs : atTileStart i) (he : atExpertStart i) (hn : ¬atExpertEnd i) (x0 : Vec F S1024x512 .f32) (x1 : Vec F S1x1024x512 .f32) (x2 : Vec F S1024x1 .i32) :
    tileStartAcc c i arg4 harg4 arg5 harg5 arg6 harg6 arg7 harg7 arg8 harg8 hs he hn x0 x1 x2 = k0_pay3 x0 x1 (k0_pay2 (F := F)) := by
  unfold tileStartAcc
  rw [View.read_writes_eq_canon _ _ _ (tileStart_acc_covers c i arg4 harg4 arg5 harg5 arg6 harg6 arg7 harg7 arg8 harg8 hs he hn x0 x1 x2)]
  unfold runTileStart
  dsimp only
  sl_unfold_words
  rw [View.canon_cons_unit_zero (S := S1024x1024) zero2, View.readCov_unit_zero (S := S1024x1024) _ zero2]
  simp only [View.readAt_eq_ld, harg4.read_unread, harg5.read_unread, harg6.read_unread, harg7.read_unread, harg8.read_unread,
    View.ld_unit_zero (S := S1024x512) zero2, View.ld_unit_zero (S := S1x1024x512) zero3, View.ld_unit_zero (S := S1024x1) zero2, View.ld_unit_zero (S := S1024x1024) zero2]

theorem expertStartAcc_eq (hs : ¬atTileStart i) (he : atExpertStart i) (hn : ¬atExpertEnd i) (x0 : Vec F S1024x512 .f32) (x1 : Vec F S1x1024x512 .f32) (x2 : Vec F S1024x1 .i32) :
    expertStartAcc c i arg4 harg4 arg5 harg5 arg6 harg6 arg7 harg7 arg8 harg8 hs he hn x0 x1 x2 = k0_pay3 x0 x1 (k0_pay2 (F := F)) := by
  unfold expertStartAcc
  rw [View.read_writes_eq_canon _ _ _ (expertStart_acc_covers c i arg4 harg4 arg5 harg5 arg6 harg6 arg7 harg7 arg8 harg8 hs he hn x0 x1 x2)]
  unfold runExpertStart
  dsimp only
  sl_unfold_words
  rw [View.canon_cons_unit_zero (S := S1024x1024) zero2, View.readCov_unit_zero (S := S1024x1024) _ zero2]
  simp only [View.readAt_eq_ld, harg4.read_unread, harg5.read_unread, harg6.read_unread, harg7.read_unread, harg8.read_unread,
    View.ld_unit_zero (S := S1024x512) zero2, View.ld_unit_zero (S := S1x1024x512) zero3, View.ld_unit_zero (S := S1024x1) zero2, View.ld_unit_zero (S := S1024x1024) zero2]

theorem middleAcc_eq (hs : ¬atTileStart i) (he : ¬atExpertStart i) (hn : ¬atExpertEnd i) (x0 : Vec F S1024x512 .f32) (x1 : Vec F S1x1024x512 .f32) (x2 : Vec F S1024x1 .i32) (a0 : Vec F S1024x1024 .f32) :
    middleAcc c i arg4 harg4 arg5 harg5 arg6 harg6 arg7 harg7 arg8 harg8 hs he hn x0 x1 x2 a0 = k0_pay3 x0 x1 a0 := by
  unfold middleAcc
  rw [View.read_writes_eq_canon _ _ _ (middle_acc_covers c i arg4 harg4 arg5 harg5 arg6 harg6 arg7 harg7 arg8 harg8 hs he hn x0 x1 x2 a0)]
  unfold runMiddle
  dsimp only
  sl_unfold_words
  rw [View.canon_unit_zero (S := S1024x1024) zero2]
  simp only [View.readAt_eq_ld, harg4.read_unread, harg5.read_unread, harg6.read_unread, harg7.read_unread, harg8.read_unread,
    View.ld_unit_zero (S := S1024x512) zero2, View.ld_unit_zero (S := S1x1024x512) zero3, View.ld_unit_zero (S := S1024x1) zero2, View.ld_unit_zero (S := S1024x1024) zero2]

theorem expertEndAcc_eq (hs : ¬atTileStart i) (he : ¬atExpertStart i) (hn : atExpertEnd i) (x0 : Vec F S1024x512 .f32) (x1 : Vec F S1x1024x512 .f32) (x2 : Vec F S1024x1 .i32) (o0 a0 : Vec F S1024x1024 .f32) :
    expertEndAcc c i arg4 harg4 arg5 harg5 arg6 harg6 arg7 harg7 arg8 harg8 hs he hn x0 x1 x2 o0 a0 = k0_pay3 x0 x1 a0 := by
  unfold expertEndAcc
  rw [View.read_writes_eq_canon _ _ _ (expertEnd_acc_covers c i arg4 harg4 arg5 harg5 arg6 harg6 arg7 harg7 arg8 harg8 hs he hn x0 x1 x2 o0 a0)]
  unfold runExpertEnd
  dsimp only
  sl_unfold_words
  rw [View.canon_unit_zero (S := S1024x1024) zero2]
  simp only [View.readAt_eq_ld, harg4.read_unread, harg5.read_unread, harg6.read_unread, harg7.read_unread, harg8.read_unread,
    View.ld_unit_zero (S := S1024x512) zero2, View.ld_unit_zero (S := S1x1024x512) zero3, View.ld_unit_zero (S := S1024x1) zero2, View.ld_unit_zero (S := S1024x1024) zero2]

theorem expertEndOut_eq (hs : ¬atTileStart i) (he : ¬atExpertStart i) (hn : atExpertEnd i) (x0 : Vec F S1024x512 .f32) (x1 : Vec F S1x1024x512 .f32) (x2 : Vec F S1024x1 .i32) (o0 a0 : Vec F S1024x1024 .f32) :
    expertEndOut c i arg4 harg4 arg5 harg5 arg6 harg6 arg7 harg7 arg8 harg8 hs he hn x0 x1 x2 o0 a0 = k0_pay4 i x2 o0 (k0_pay3 x0 x1 a0) := by
  unfold expertEndOut
  rw [View.read_writes_eq_canon _ _ _ (expertEnd_out_covers c i arg4 harg4 arg5 harg5 arg6 harg6 arg7 harg7 arg8 harg8 hs he hn x0 x1 x2 o0 a0)]
  unfold runExpertEnd
  dsimp only
  sl_unfold_words
  rw [View.canon_unit_zero (S := S1024x1024) zero2, View.readCov_unit_zero (S := S1024x1024) _ zero2]
  simp only [View.readAt_eq_ld, harg4.read_unread, harg5.read_unread, harg6.read_unread, harg7.read_unread, harg8.read_unread,
    View.ld_unit_zero (S := S1024x512) zero2, View.ld_unit_zero (S := S1x1024x512) zero3, View.ld_unit_zero (S := S1024x1) zero2, View.ld_unit_zero (S := S1024x1024) zero2]

end

variable (m : (ℓ : Loc nD τ sig) → Buf (Elt F) ℓ)

/-! ## The recursion of `carried`, in those values -/

theorem step_tileStart (c : Dev nD) (t : Fin cfg0.N) (h0 : t.val % 32 = 0) :
    carried m c t.val t.isLt = (k0_pay1 (F := F), k0_pay3 (iblk m c 0 t) (iblk m c 1 t) (k0_pay2 (F := F))) := by
  have hN : t.val < 512 := lt_of_lt_of_eq t.isLt (show cfg0.N = 512 from N_0)
  rw [carried_tileStart m c t h0 ((atTileStart_iff t).mpr h0) ((atExpertStart_iff t).mpr (by omega)) (fun h => by have := (atExpertEnd_iff t).mp h; omega),
    tileStartOut_eq, tileStartAcc_eq]

theorem step_expertStart (c : Dev nD) (t : Fin cfg0.N) (h0 : ¬t.val % 32 = 0) (h1 : t.val % 8 = 0) :
    carried m c t.val t.isLt = ((carried m c (prev t).val (prev t).isLt).1, k0_pay3 (iblk m c 0 t) (iblk m c 1 t) (k0_pay2 (F := F))) := by
  rw [carried_expertStart m c t h0 h1 (fun h => h0 ((atTileStart_iff t).mp h)) ((atExpertStart_iff t).mpr h1) (fun h => by have := (atExpertEnd_iff t).mp h; omega),
    expertStartAcc_eq]

theorem step_middle (c : Dev nD) (t : Fin cfg0.N) (h0 : ¬t.val % 32 = 0) (h1 : ¬t.val % 8 = 0) (h2 : ¬t.val % 8 = 7) :
    carried m c t.val t.isLt = ((carried m c (prev t).val (prev t).isLt).1,
      k0_pay3 (iblk m c 0 t) (iblk m c 1 t) (carried m c (prev t).val (prev t).isLt).2) := by
  rw [carried_middle m c t h0 h1 h2 (fun h => h0 ((atTileStart_iff t).mp h)) (fun h => h1 ((atExpertStart_iff t).mp h)) (fun h => h2 ((atExpertEnd_iff t).mp h)),
    middleAcc_eq]

theorem step_expertEnd (c : Dev nD) (t : Fin cfg0.N) (h0 : ¬t.val % 32 = 0) (h1 : ¬t.val % 8 = 0) (h2 : t.val % 8 = 7) :
    carried m c t.val t.isLt =
      (k0_pay4 (grid0.coords t) (iblk m c 2 t) (carried m c (prev t).val (prev t).isLt).1
          (k0_pay3 (iblk m c 0 t) (iblk m c 1 t) (carried m c (prev t).val (prev t).isLt).2),
        k0_pay3 (iblk m c 0 t) (iblk m c 1 t) (carried m c (prev t).val (prev t).isLt).2) := by
  rw [carried_expertEnd m c t h0 h1 h2 (fun h => h0 ((atTileStart_iff t).mp h)) (fun h => h1 ((atExpertStart_iff t).mp h)) ((atExpertEnd_iff t).mpr h2),
    expertEndOut_eq, expertEndAcc_eq]

end Cert.KernelIdeal.Hand

end
-- ==== Proof.KI.Pointwise.lean ====
/-
  The body's arithmetic and the windows' blocks, read at one element over the extended reals.

  "Add the tile product": at element (r, o) of the 1024 × 1024 tile, a (r, o) + Σ_{k < 512} x (r, k) · w (0, o, k) — the
  matrix unit's product into a zero accumulator is that plain sum (the narrowing to bf16 on the way in is the identity
  on extended reals, and the leading unit axis of the weight tile is dropped).
  "Add the masked accumulator": out (r, o) + mask (r) · a (r, o), mask (r) the 0/1 value of "route (r) = e".
  A window's block at grid point t reads its array at block index × block size + the coordinate inside the block.
-/
import proofs.«125423_j28973849379120_1_alg».proof.Proof.Gen.KernelIdeal.Frame
import proofs.«125423_j28973849379120_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem

/-! ## The two payloads at an element -/

theorem dot_lhs_row (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem dot_rhs_row (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

/-- The tile product x · wᵀ into a zero accumulator, at (r, o): the sum over the 512 features of the step. -/
theorem tile_matmul_apply (x w : FVec Ideal S1024x512 .bf16) (r o : Fin 1024) :
    matmul dot_S1024x512_S1024x512_S1024x1024_1_1_0_0_n_n none x w (constant (F := Ideal) S1024x1024 .f32 0x00000000#32) (ix2 r o)
      = ∑ k : Fin 512, x (ix2 r k) * w (ix2 o k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r o) ((contrEquiv1 dot_S1024x512_S1024x512_S1024x1024_1_1_0_0_n_n 512 rfl rfl).symm k) = ix2 r k := funext fun a => Fin.ext (by
    match a with
    | ⟨0, _⟩ => exact dot_lhs_row _ _
    | ⟨1, _⟩ => exact (dot_S1024x512_S1024x512_S1024x1024_1_1_0_0_n_n.lhsIdx_val_of_single rfl _ _).trans hk)
  have er : dot_S1024x512_S1024x512_S1024x1024_1_1_0_0_n_n.rhsIdx (ix2 r o) ((contrEquiv1 dot_S1024x512_S1024x512_S1024x1024_1_1_0_0_n_n 512 rfl rfl).symm k) = ix2 o k := funext fun a => Fin.ext (by
    match a with
    | ⟨0, _⟩ => exact dot_rhs_row _ _
    | ⟨1, _⟩ => exact (dot_S1024x512_S1024x512_S1024x1024_1_1_0_0_n_n.rhsIdx_val_of_single rfl _ _).trans hk)
  rw [el, er]

theorem addTileProduct_apply (x0 : Vec Ideal S1024x512 .f32) (x1 : Vec Ideal S1x1024x512 .f32) (a : Vec Ideal S1024x1024 .f32) (r o : Fin 1024) :
    k0_pay3 (F := Ideal) x0 x1 a (ix2 r o) = a (ix2 r o) + ∑ k : Fin 512, x0 (ix2 r k) * x1 (ix3 (0 : Fin 1) o k) := by
  unfold k0_pay3
  rw [shapeCast_self]
  show a (ix2 r o) + matmul dot_S1024x512_S1024x512_S1024x1024_1_1_0_0_n_n none (truncf .bf16 x0 bitsLt_bf16_f32) (truncf .bf16 (shapeCast S1024x512 x1 shapeCasts_S1x1024x512_S1024x512) bitsLt_bf16_f32) (constant (F := Ideal) S1024x1024 .f32 0x00000000#32) (ix2 r o) = _
  rw [tile_matmul_apply]
  refine congrArg (a (ix2 r o) + ·) (Finset.sum_congr rfl fun k _ => ?_)
  show x0 (ix2 r k) * shapeCast S1024x512 x1 shapeCasts_S1x1024x512_S1024x512 (ix2 o k) = _
  rw [shapeCast_1ab_ab_apply]

/-- The mask as the body computes it — the comparison bit widened to a word and read as a signed integer — is the bit
    read as an unsigned integer: 0 or 1 either way. -/
theorem mask_word (b : BitVec 1) :
    FloatOps.sitofp (F := Ideal) .f32 (b.setWidth 32) = FloatOps.uitofp (F := Ideal) .f32 b := by
  rcases BitVec.eq_zero_or_eq_one b with h | h <;> subst h <;> simp [FloatOps.sitofp, FloatOps.uitofp]

theorem addMasked_apply (i : grid0.Coords) (x2 : Vec Ideal S1024x1 .i32) (o0 a : Vec Ideal S1024x1024 .f32) (r o : Fin 1024) :
    k0_pay4 (F := Ideal) i x2 o0 a (ix2 r o)
      = o0 (ix2 r o) + FloatOps.uitofp (F := Ideal) .f32 (IntOp.cmpi .eq (x2 (ix2 r (0 : Fin 1))) (BitVec.ofNat 32 (i 2).val)) * a (ix2 r o) := by
  unfold k0_pay4
  simp only [shapeCast_self]
  show o0 (ix2 r o) + (broadcastTo S1024x1024 (sitofp (F := Ideal) .f32 (extui 32 (cmpi .eq x2 (broadcast S1024x1 (BitVec.ofNat 32 (i 2).val))) natLt_1_32)) broadcasts_S1024x1_S1024x1024) (ix2 r o) * a (ix2 r o) = _
  rw [broadcastTo_apply _ broadcasts_S1024x1_S1024x1024 (ix2 r o) (ix2 r (0 : Fin 1)) (fun a => by
    match a with
    | ⟨0, _⟩ => show r.val = if (1024 : Nat) = 1 then 0 else r.val; rw [if_neg (by decide)]
    | ⟨1, _⟩ => show 0 = if (1 : Nat) = 1 then 0 else o.val; rw [if_pos rfl])]
  show o0 (ix2 r o) + FloatOps.sitofp (F := Ideal) .f32 ((IntOp.cmpi .eq (x2 (ix2 r (0 : Fin 1))) (BitVec.ofNat 32 (i 2).val)).setWidth 32) * a (ix2 r o) = _
  rw [mask_word]

end Cert.KernelIdeal.Hand

end
-- ==== Proof.KI.Blocks.lean ====
/-
  A window's block at grid point t, element by element, in the coordinates of its array: point t has reduction step
  t mod 8, expert (t / 8) mod 4, output tile (t / 32) mod 4 and token tile t / 128; a block's element sits at
  block index × block size + the coordinate inside the block.  The routing column the kernel stages is the routing
  vector re-laid as [4096, 1].
-/
import proofs.«125423_j28973849379120_1_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

theorem x_index : ∀ t : Fin cfg0.N, win0_0.index t (0 : Fin 2) = t.val / 128 ∧ win0_0.index t (1 : Fin 2) = t.val % 8 :=
  (by decide +kernel : ∀ t : Fin grid0.N, win0_0.index t (0 : Fin 2) = t.val / 128 ∧ win0_0.index t (1 : Fin 2) = t.val % 8)
theorem w_index : ∀ t : Fin cfg0.N, win0_1.index t (0 : Fin 3) = t.val / 8 % 4 ∧ win0_1.index t (1 : Fin 3) = t.val / 32 % 4 ∧ win0_1.index t (2 : Fin 3) = t.val % 8 :=
  (by decide +kernel : ∀ t : Fin grid0.N, win0_1.index t (0 : Fin 3) = t.val / 8 % 4 ∧ win0_1.index t (1 : Fin 3) = t.val / 32 % 4 ∧ win0_1.index t (2 : Fin 3) = t.val % 8)
theorem route_index : ∀ t : Fin cfg0.N, win0_2.index t (0 : Fin 2) = t.val / 128 ∧ win0_2.index t (1 : Fin 2) = 0 :=
  (by decide +kernel : ∀ t : Fin grid0.N, win0_2.index t (0 : Fin 2) = t.val / 128 ∧ win0_2.index t (1 : Fin 2) = 0)
theorem out_index : ∀ t : Fin cfg0.N, win0_3.index t (0 : Fin 2) = t.val / 128 ∧ win0_3.index t (1 : Fin 2) = t.val / 32 % 4 :=
  (by decide +kernel : ∀ t : Fin grid0.N, win0_3.index t (0 : Fin 2) = t.val / 128 ∧ win0_3.index t (1 : Fin 2) = t.val / 32 % 4)
theorem expert_coord : ∀ t : Fin cfg0.N, (grid0.coords t 2).val = t.val / 8 % 4 :=
  (by decide +kernel : ∀ t : Fin grid0.N, (grid0.coords t 2).val = t.val / 8 % 4)

theorem x_block (c : Dev nD) (t : Fin cfg0.N) (r : Fin 1024) (k : Fin 512)
    (hR : 1024 * (t.val / 128) + r.val < 4096) (hJ : 512 * (t.val % 8) + k.val < 4096) :
    (iblk m c 0 t : Vec F S1024x512 .f32) (ix2 r k)
      = m ((c.tc : Thread nD τ).loc main_arg0) (ix2 (⟨1024 * (t.val / 128) + r.val, hR⟩ : Fin 4096) (⟨512 * (t.val % 8) + k.val, hJ⟩ : Fin 4096)) := by
  rw [← V_main_arg0 m c]
  show V m c main_arg0 (((cfg0.win 0).blk t).view.emb (ix2 r k)) = V m c main_arg0 _
  refine congrArg (V m c main_arg0) (funext fun a => Fin.ext ?_)
  match a with
  | ⟨0, _⟩ => show win0_0.index t (0 : Fin 2) * 1024 + 1 * r.val = 1024 * (t.val / 128) + r.val; rw [(x_index t).1]; omega
  | ⟨1, _⟩ => show win0_0.index t (1 : Fin 2) * 512 + 1 * k.val = 512 * (t.val % 8) + k.val; rw [(x_index t).2]; omega

theorem w_block (c : Dev nD) (t : Fin cfg0.N) (o : Fin 1024) (k : Fin 512)
    (hE : t.val / 8 % 4 < 4) (hO : 1024 * (t.val / 32 % 4) + o.val < 4096) (hJ : 512 * (t.val % 8) + k.val < 4096) :
    (iblk m c 1 t : Vec F S1x1024x512 .f32) (ix3 (0 : Fin 1) o k)
      = m ((c.tc : Thread nD τ).loc main_arg1) (ix3 (⟨t.val / 8 % 4, hE⟩ : Fin 4) (⟨1024 * (t.val / 32 % 4) + o.val, hO⟩ : Fin 4096) (⟨512 * (t.val % 8) + k.val, hJ⟩ : Fin 4096)) := by
  rw [← V_main_arg1 m c]
  show V m c main_arg1 (((cfg0.win 1).blk t).view.emb (ix3 (0 : Fin 1) o k)) = V m c main_arg1 _
  refine congrArg (V m c main_arg1) (funext fun a => Fin.ext ?_)
  match a with
  | ⟨0, _⟩ => show win0_1.index t (0 : Fin 3) * 1 + 1 * 0 = t.val / 8 % 4; rw [(w_index t).1]; omega
  | ⟨1, _⟩ => show win0_1.index t (1 : Fin 3) * 1024 + 1 * o.val = 1024 * (t.val / 32 % 4) + o.val; rw [(w_index t).2.1]; omega
  | ⟨2, _⟩ => show win0_1.index t (2 : Fin 3) * 512 + 1 * k.val = 512 * (t.val % 8) + k.val; rw [(w_index t).2.2]; omega

/-- The routing column the region finds: the routing vector re-laid as a column. -/
theorem route_column (c : Dev nD) :
    (V m c main_v0 : S4096x1.Idx → Elt F .i32) = shapeCast S4096x1 (m ((c.tc : Thread nD τ).loc main_arg2)) shapeCasts_S4096_S4096x1 := by
  dsimp only [V, hostOps0]; after_results; rfl

theorem route_block (c : Dev nD) (t : Fin cfg0.N) (r : Fin 1024) (hR : 1024 * (t.val / 128) + r.val < 4096) :
    (iblk m c 2 t : Vec F S1024x1 .i32) (ix2 r (0 : Fin 1))
      = m ((c.tc : Thread nD τ).loc main_arg2) (ix1 (⟨1024 * (t.val / 128) + r.val, hR⟩ : Fin 4096)) := by
  show V m c main_v0 (((cfg0.win 2).blk t).view.emb (ix2 r (0 : Fin 1))) = _
  rw [route_column m c]
  refine shapeCast_apply _ shapeCasts_S4096_S4096x1 _ _ ?_
  rw [Shape.rowMajor_val_one, Shape.rowMajor_val_two]
  show 1024 * (t.val / 128) + r.val = (win0_2.index t (0 : Fin 2) * 1024 + 1 * r.val) * 1 + (win0_2.index t (1 : Fin 2) * 1 + 1 * 0)
  rw [(route_index t).1, (route_index t).2]; omega

end Cert.KernelIdeal.Hand

end
-- ==== Proof.Spec.lean ====
/-
  The routed matmul as one function of the three argument arrays, and the law that joins its two arrangements.

  Arrays: x [4096 tokens × 4096 features], w [4 experts × 4096 outputs × 4096 features], route [4096 tokens] (an expert
  number per token).  For token R and output O:

      out (R, O) = (((0 + m₀·d₀) + m₁·d₁) + m₂·d₂) + m₃·d₃,
      m_e = 1 if route R = e else 0,      d_e = Σ_{j < 4096} x (R, j) · w (e, O, j).

  The tiled arrangement computes d_e as eight partial sums of 512 features each, added one after the other onto a
  zero, and works on 1024 × 1024 tiles (tile (a, b), element (r, o) ↦ token 1024 a + r, output 1024 b + o).
  On the extended reals addition is associative and commutative, so splitting the sum over 4096 features into
  eight runs of 512 changes nothing (`accAfter_seven`); no product is distributed over a sum, so no finiteness is needed.
-/
import Idealize.ShloMosaic.PureOps.Ideal
import Idealize.ShloMosaic.PureOps.Ideal.Laws
import Idealize.ShloMosaic.Lib.ValueIdx

noncomputable section

open scoped BigOperators

namespace Cert.RoutedSpec

open Idealize.ShloMosaic Idealize.ShloMosaic.ValueIdx

variable (X : (⟨2, ![4096, 4096]⟩ : Shape).Idx → EReal) (W : (⟨3, ![4, 4096, 4096]⟩ : Shape).Idx → EReal)
  (I : (⟨1, ![4096]⟩ : Shape).Idx → BitVec 32)

/-- The arrays read at natural-number coordinates (zero outside; only in-range coordinates are ever used). -/
def xAt (R j : ℕ) : EReal := if h : R < 4096 ∧ j < 4096 then X (ix2 ⟨R, h.1⟩ ⟨j, h.2⟩) else 0
def wAt (e O j : ℕ) : EReal := if h : e < 4 ∧ O < 4096 ∧ j < 4096 then W (ix3 ⟨e, h.1⟩ ⟨O, h.2.1⟩ ⟨j, h.2.2⟩) else 0
def routeAt (R : ℕ) : BitVec 32 := if h : R < 4096 then I (ix1 ⟨R, h⟩) else 0

theorem xAt_of_lt {R j : ℕ} (hR : R < 4096) (hj : j < 4096) : xAt X R j = X (ix2 ⟨R, hR⟩ ⟨j, hj⟩) := dif_pos ⟨hR, hj⟩
theorem wAt_of_lt {e O j : ℕ} (he : e < 4) (hO : O < 4096) (hj : j < 4096) : wAt W e O j = W (ix3 ⟨e, he⟩ ⟨O, hO⟩ ⟨j, hj⟩) :=
  dif_pos ⟨he, hO, hj⟩
theorem routeAt_of_lt {R : ℕ} (hR : R < 4096) : routeAt I R = I (ix1 ⟨R, hR⟩) := dif_pos hR

/-- 1 where the token is routed to expert `e`, else 0. -/
def mask (R e : ℕ) : EReal := FloatOps.uitofp (F := Ideal) .f32 (IntOp.cmpi .eq (routeAt I R) (BitVec.ofNat 32 e))

/-- The full dot product of token `R`'s features with expert `e`'s output row `O`. -/
def dot (R e O : ℕ) : EReal := ∑ j ∈ Finset.range 4096, xAt X R j * wAt W e O j

/-- One reduction step's share of it: features 512 k … 512 k + 511. -/
def partialDot (R e O k : ℕ) : EReal := ∑ i ∈ Finset.range 512, xAt X R (512 * k + i) * wAt W e O (512 * k + i)

/-- The accumulator after reduction step `k`: zero, then the partial products added in order. -/
def accAfter (R e O : ℕ) : ℕ → EReal
  | 0 => 0 + partialDot X W R e O 0
  | k + 1 => accAfter R e O k + partialDot X W R e O (k + 1)

/-- The output element after `n` experts have been added: zero, then mask · dot, in order. -/
def outAfter (R O : ℕ) : ℕ → EReal
  | 0 => 0
  | n + 1 => outAfter R O n + mask I R n * accAfter X W R n O 7

/-- A sum over `512 · K` consecutive features is `K` sums over 512. -/
theorem sum_by_runs (f : ℕ → EReal) : ∀ K : ℕ,
    ∑ j ∈ Finset.range (512 * K), f j = ∑ k ∈ Finset.range K, ∑ i ∈ Finset.range 512, f (512 * k + i)
  | 0 => by simp
  | K + 1 => by
    rw [Nat.mul_succ, Finset.sum_range_add, sum_by_runs f K,
      Finset.sum_range_succ (fun k => ∑ i ∈ Finset.range 512, f (512 * k + i)) K]

theorem accAfter_eq_sum (R e O : ℕ) : ∀ k : ℕ, accAfter X W R e O k = ∑ k' ∈ Finset.range (k + 1), partialDot X W R e O k'
  | 0 => by simp [accAfter]
  | k + 1 => by rw [accAfter, accAfter_eq_sum R e O k, Finset.sum_range_succ _ (k + 1)]

/-- After the eighth step the accumulator holds the full dot product. -/
theorem accAfter_seven (R e O : ℕ) : accAfter X W R e O 7 = dot X W R e O := by
  rw [accAfter_eq_sum, dot, show (4096 : ℕ) = 512 * 8 from rfl, sum_by_runs]
  rfl

/-- The whole result: every element after all four experts. -/
def routed (y : (⟨2, ![4096, 4096]⟩ : Shape).Idx) : EReal := outAfter X W I (y 0).val (y 1).val 4

/-- The same written out, with the sums over the feature axis itself — the form an untiled computation has. -/
theorem routed_apply (R O : Fin 4096) :
    routed X W I (ix2 R O) =
      (((0 + FloatOps.uitofp (F := Ideal) .f32 (IntOp.cmpi .eq (I (ix1 R)) 0#32) * ∑ j : Fin 4096, X (ix2 R j) * W (ix3 (0 : Fin 4) O j))
        + FloatOps.uitofp (F := Ideal) .f32 (IntOp.cmpi .eq (I (ix1 R)) 1#32) * ∑ j : Fin 4096, X (ix2 R j) * W (ix3 (1 : Fin 4) O j))
        + FloatOps.uitofp (F := Ideal) .f32 (IntOp.cmpi .eq (I (ix1 R)) 2#32) * ∑ j : Fin 4096, X (ix2 R j) * W (ix3 (2 : Fin 4) O j))
        + FloatOps.uitofp (F := Ideal) .f32 (IntOp.cmpi .eq (I (ix1 R)) 3#32) * ∑ j : Fin 4096, X (ix2 R j) * W (ix3 (3 : Fin 4) O j) := by
  have hR : R.val < 4096 := R.isLt
  have hO : O.val < 4096 := O.isLt
  have hd : ∀ (e : ℕ) (he : e < 4), dot X W R.val e O.val = ∑ j : Fin 4096, X (ix2 R j) * W (ix3 (⟨e, he⟩ : Fin 4) O j) := by
    intro e he
    rw [dot, Finset.sum_range]
    refine Finset.sum_congr rfl fun j _ => ?_
    rw [xAt_of_lt X hR j.isLt, wAt_of_lt W he hO j.isLt]
  have hm : ∀ e : ℕ, mask I R.val e = FloatOps.uitofp (F := Ideal) .f32 (IntOp.cmpi .eq (I (ix1 R)) (BitVec.ofNat 32 e)) := by
    intro e; rw [mask, routeAt_of_lt I hR]
  show outAfter X W I R.val O.val 4 = _
  simp only [outAfter, accAfter_seven, hm]
  rw [hd 0 (by decide), hd 1 (by decide), hd 2 (by decide), hd 3 (by decide)]
  rfl

end Cert.RoutedSpec

end
-- ==== Proof.KI.Invariant.lean ====
/-
  What the two carried buffers hold after every grid point, element by element, in the terms of Spec.lean.

  Point n works on token tile n / 128, output tile (n / 32) mod 4, expert (n / 8) mod 4, reduction step n mod 8.
  For the element (r, o) of the tile — token R = 1024 (n / 128) + r, output O = 1024 ((n / 32) mod 4) + o —
    * the accumulator holds `accAfter R e O k`: zero plus the partial products of steps 0 … k of expert e;
    * the output tile holds `outAfter R O e'`: zero plus mask · dot for the experts below e', where e' = e + 1 once
      expert e's last step (k = 7) has added it, and e before.
  Both by induction on the point, each step one of the four kinds of point.
-/
import proofs.«125423_j28973849379120_1_alg».proof.Proof.KI.PieceValues
import proofs.«125423_j28973849379120_1_alg».proof.Proof.KI.Pointwise
import proofs.«125423_j28973849379120_1_alg».proof.Proof.KI.Blocks
import proofs.«125423_j28973849379120_1_alg».proof.Proof.Spec

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Cert.RoutedSpec

variable (m : (ℓ : Loc nD τ sig) → Buf (Elt Ideal) ℓ)

/-- The three argument arrays as launched. -/
abbrev argX (c : Dev nD) : S4096x4096.Idx → EReal := m ((c.tc : Thread nD τ).loc main_arg0)
abbrev argW (c : Dev nD) : S4x4096x4096.Idx → EReal := m ((c.tc : Thread nD τ).loc main_arg1)
abbrev argRoute (c : Dev nD) : S4096.Idx → BitVec 32 := m ((c.tc : Thread nD τ).loc main_arg2)

theorem zeroOut_apply (y : S1024x1024.Idx) : k0_pay1 (F := Ideal) y = 0 := by
  unfold k0_pay1
  show Ideal.ofBits .f32 0x00000000#32 = 0
  exact Ideal.ofBits_zero_f32

theorem zeroAcc_apply (y : S1024x1024.Idx) : k0_pay2 (F := Ideal) y = 0 := by
  unfold k0_pay2
  rw [shapeCast_self]
  show Ideal.ofBits .f32 0x00000000#32 = 0
  exact Ideal.ofBits_zero_f32

/-- The tile product of point `t` at (r, o) is that step's share of the dot product. -/
theorem block_partial (c : Dev nD) (t : Fin cfg0.N) (r o : Fin 1024)
    (b0 : Vec Ideal S1024x512 .f32) (b1 : Vec Ideal S1x1024x512 .f32) (h0 : b0 = iblk m c 0 t) (h1 : b1 = iblk m c 1 t) :
    ∑ k : Fin 512, b0 (ix2 r k) * b1 (ix3 (0 : Fin 1) o k)
      = partialDot (argX m c) (argW m c) (1024 * (t.val / 128) + r.val) (t.val / 8 % 4) (1024 * (t.val / 32 % 4) + o.val) (t.val % 8) := by
  have hN : t.val < 512 := lt_of_lt_of_eq t.isLt (show cfg0.N = 512 from N_0)
  have hr := r.isLt
  have ho := o.isLt
  subst h0 h1
  rw [partialDot, Finset.sum_range]
  refine Finset.sum_congr rfl fun k _ => ?_
  have hk := k.isLt
  rw [x_block m c t r k (by omega) (by omega), w_block m c t o k (by omega) (by omega) (by omega),
    xAt_of_lt _ (by omega) (by omega), wAt_of_lt _ (by omega) (by omega) (by omega)]

/-- The accumulator after point `n`. -/
theorem acc_value (c : Dev nD) : ∀ (n : ℕ) (hn : n < cfg0.N) (r o : Fin 1024),
    (carried m c n hn).2 (ix2 r o)
      = accAfter (argX m c) (argW m c) (1024 * (n / 128) + r.val) (n / 8 % 4) (1024 * (n / 32 % 4) + o.val) (n % 8) := by
  intro n
  induction n with
  | zero =>
    intro hn r o
    have hstep : carried m c 0 hn = _ := step_tileStart m c ⟨0, hn⟩ rfl
    rw [hstep]
    show k0_pay3 (F := Ideal) (iblk m c 0 ⟨0, hn⟩) (iblk m c 1 ⟨0, hn⟩) (k0_pay2 (F := Ideal)) (ix2 r o) = _
    rw [addTileProduct_apply, zeroAcc_apply, block_partial m c _ r o _ _ rfl rfl]
    rfl
  | succ k ih =>
    intro hn r o
    have hN : k + 1 < 512 := lt_of_lt_of_eq hn (show cfg0.N = 512 from N_0)
    by_cases h1 : (k + 1) % 8 = 0
    · -- the accumulator starts afresh
      have hfresh : (carried m c (k + 1) hn).2 = k0_pay3 (F := Ideal) (iblk m c 0 ⟨k + 1, hn⟩) (iblk m c 1 ⟨k + 1, hn⟩) (k0_pay2 (F := Ideal)) := by
        by_cases h0 : (k + 1) % 32 = 0
        · have hstep : carried m c (k + 1) hn = _ := step_tileStart m c ⟨k + 1, hn⟩ h0
          rw [hstep]
        · have hstep : carried m c (k + 1) hn = _ := step_expertStart m c ⟨k + 1, hn⟩ h0 h1
          rw [hstep]
      rw [hfresh, addTileProduct_apply, zeroAcc_apply, block_partial m c _ r o _ _ rfl rfl]
      show 0 + partialDot _ _ _ _ _ ((k + 1) % 8) = accAfter _ _ _ _ _ ((k + 1) % 8)
      rw [h1]
      rfl
    · -- the accumulator grows by one partial product
      have hgrow : (carried m c (k + 1) hn).2
          = k0_pay3 (F := Ideal) (iblk m c 0 ⟨k + 1, hn⟩) (iblk m c 1 ⟨k + 1, hn⟩) (carried m c k (Nat.lt_of_succ_lt hn)).2 := by
        have h0 : ¬(k + 1) % 32 = 0 := by omega
        by_cases h2 : (k + 1) % 8 = 7
        · have hstep : carried m c (k + 1) hn = _ := step_expertEnd m c ⟨k + 1, hn⟩ h0 h1 h2
          rw [hstep]
          rfl
        · have hstep : carried m c (k + 1) hn = _ := step_middle m c ⟨k + 1, hn⟩ h0 h1 h2
          rw [hstep]
          rfl
      rw [hgrow, addTileProduct_apply, ih (Nat.lt_of_succ_lt hn) r o, block_partial m c _ r o _ _ rfl rfl]
      show accAfter _ _ _ _ _ (k % 8) + partialDot _ _ (1024 * ((k + 1) / 128) + r.val) ((k + 1) / 8 % 4) (1024 * ((k + 1) / 32 % 4) + o.val) ((k + 1) % 8) = _
      have e1 : k / 128 = (k + 1) / 128 := by omega
      have e2 : k / 8 % 4 = (k + 1) / 8 % 4 := by omega
      have e3 : k / 32 % 4 = (k + 1) / 32 % 4 := by omega
      have e4 : (k + 1) % 8 = k % 8 + 1 := by omega
      rw [e1, e2, e3, e4]
      rfl

/-- The output tile after point `n`. -/
theorem out_value (c : Dev nD) : ∀ (n : ℕ) (hn : n < cfg0.N) (r o : Fin 1024),
    (carried m c n hn).1 (ix2 r o)
      = outAfter (argX m c) (argW m c) (argRoute m c) (1024 * (n / 128) + r.val) (1024 * (n / 32 % 4) + o.val)
          (if n % 8 = 7 then n / 8 % 4 + 1 else n / 8 % 4) := by
  intro n
  induction n with
  | zero =>
    intro hn r o
    have hstep : carried m c 0 hn = _ := step_tileStart m c ⟨0, hn⟩ rfl
    rw [hstep]
    show k0_pay1 (F := Ideal) (ix2 r o) = _
    rw [zeroOut_apply]
    rfl
  | succ k ih =>
    intro hn r o
    have hN : k + 1 < 512 := lt_of_lt_of_eq hn (show cfg0.N = 512 from N_0)
    have hr := r.isLt
    have ho := o.isLt
    by_cases h0 : (k + 1) % 32 = 0
    · have hstep : carried m c (k + 1) hn = _ := step_tileStart m c ⟨k + 1, hn⟩ h0
      rw [hstep]
      show k0_pay1 (F := Ideal) (ix2 r o) = _
      rw [zeroOut_apply, if_neg (by omega), show (k + 1) / 8 % 4 = 0 from by omega]
      rfl
    · have e1 : k / 128 = (k + 1) / 128 := by omega
      have e3 : k / 32 % 4 = (k + 1) / 32 % 4 := by omega
      by_cases h1 : (k + 1) % 8 = 0
      · have hstep : carried m c (k + 1) hn = _ := step_expertStart m c ⟨k + 1, hn⟩ h0 h1
        rw [hstep]
        show (carried m c k (Nat.lt_of_succ_lt hn)).1 (ix2 r o) = _
        rw [ih (Nat.lt_of_succ_lt hn) r o, if_pos (by omega), if_neg (by omega), e1, e3, show k / 8 % 4 + 1 = (k + 1) / 8 % 4 from by omega]
      · have e2 : k / 8 % 4 = (k + 1) / 8 % 4 := by omega
        by_cases h2 : (k + 1) % 8 = 7
        · have hstep : carried m c (k + 1) hn = _ := step_expertEnd m c ⟨k + 1, hn⟩ h0 h1 h2
          have hacc := acc_value m c (k + 1) hn r o
          rw [hstep] at hacc
          rw [hstep]
          show k0_pay4 (F := Ideal) (grid0.coords ⟨k + 1, hn⟩) (iblk m c 2 ⟨k + 1, hn⟩) (carried m c k (Nat.lt_of_succ_lt hn)).1
              (k0_pay3 (F := Ideal) (iblk m c 0 ⟨k + 1, hn⟩) (iblk m c 1 ⟨k + 1, hn⟩) (carried m c k (Nat.lt_of_succ_lt hn)).2) (ix2 r o) = _
          have hacc' : k0_pay3 (F := Ideal) (iblk m c 0 ⟨k + 1, hn⟩) (iblk m c 1 ⟨k + 1, hn⟩) (carried m c k (Nat.lt_of_succ_lt hn)).2 (ix2 r o)
              = accAfter (argX m c) (argW m c) (1024 * ((k + 1) / 128) + r.val) ((k + 1) / 8 % 4) (1024 * ((k + 1) / 32 % 4) + o.val) 7 := by
            rw [← h2]; exact hacc
          rw [addMasked_apply, hacc', ih (Nat.lt_of_succ_lt hn) r o, if_neg (by omega), if_pos h2,
            route_block m c ⟨k + 1, hn⟩ r (by show 1024 * ((k + 1) / 128) + r.val < 4096; omega), expert_coord ⟨k + 1, hn⟩, e1, e2, e3]
          show outAfter _ _ _ _ _ ((k + 1) / 8 % 4) + FloatOps.uitofp (F := Ideal) .f32 (IntOp.cmpi .eq (argRoute m c (ix1 ⟨1024 * ((k + 1) / 128) + r.val, _⟩)) (BitVec.ofNat 32 ((k + 1) / 8 % 4))) * _ = _
          rw [← routeAt_of_lt (argRoute m c) (show 1024 * ((k + 1) / 128) + r.val < 4096 by omega)]
          rfl
        · have hstep : carried m c (k + 1) hn = _ := step_middle m c ⟨k + 1, hn⟩ h0 h1 h2
          rw [hstep]
          show (carried m c k (Nat.lt_of_succ_lt hn)).1 (ix2 r o) = _
          rw [ih (Nat.lt_of_succ_lt hn) r o, if_neg (by omega), if_neg h2, e1, e2, e3]

end Cert.KernelIdeal.Hand

end
-- ==== Proof.KI.Body.lean ====
/-
  The body at any grid point does what the pipeline's proof data says: which kind of point it is follows from the
  position; the inputs hold their blocks; the output tile, where the body reads it, holds what the point before left;
  the accumulator is handed over by the invariant between points and taken back at this point's contents.
-/
import proofs.«125423_j28973849379120_1_alg».proof.Proof.KI.Carried

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (bufX t) fullShare ((dats m 0 c).before 0 t d))
    ∗ (∃ d, owns (c : Thread nD τ) (bufW t) fullShare ((dats m 0 c).before 1 t d))
    ∗ (∃ d, owns (c : Thread nD τ) (bufIdx t) fullShare ((dats m 0 c).before 2 t d))
    ∗ (∃ d, owns (c : Thread nD τ) (bufOut t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- Whatever the position, the invariant before it yields the accumulator at some contents. -/
theorem acc_at_anything (c : Dev nD) (t : Fin cfg0.N) :
    (dats m 0 c).Φ t.castSucc ⊢ (iprop(iprop(∃ d, owns (c : Thread nD τ) accM fullShare d) ∗ (∃ r, prngReg c r)) : sProp 𝕄) := by
  rw [between_castSucc m c t]
  by_cases hz : t.val = 0
  · rw [between_first m c _ _ hz, scratch_and_prng]
  · rw [between_later m c _ _ hz]
    iintro ⟨HS, Hg⟩
    isplitl [HS]
    · iexists _; iexact HS
    iexact Hg

set_option maxHeartbeats 1600000 in
/-- A tile opens: both carried buffers are overwritten. -/
theorem body_tileStart (c : Dev nD) (t : Fin cfg0.N) (h0 : t.val % 32 = 0) :
    bodyPre m c t ⊢ wp frame (wpE (defs₀ (F := F)) Variants.none c none) Set.univ (bodyAt0 t) (fun _ => bodyPost m c t) := by
  have hN : t.val < 512 := lt_of_lt_of_eq t.isLt (show cfg0.N = 512 from N_0)
  have hs := (atTileStart_iff t).mpr h0
  have he : atExpertStart (grid0.coords t) := (atExpertStart_iff t).mpr (by omega)
  have hn : ¬atExpertEnd (grid0.coords t) := fun h => by have := (atExpertEnd_iff t).mp h; omega
  unfold bodyPre bodyPost bodyAt0
  simp only [found_x, found_w, found_idx]
  rw [show (dats m 0 c).owesAt () t.succ = (dats m 0 c).owesAt () t.castSucc from rfl]
  rw [show (dats m 0 c).Φ t.succ = between m c (t.val + 1) t.isLt from rfl, between_succ]
  rw [leaves_x, leaves_w, leaves_idx]
  rw [leaves_out_live m c t (.inl h0), out_tileStart m c t h0 hs he hn, acc_tileStart m c t h0 hs he hn]
  unfold tileStartOut tileStartAcc
  iintro ⟨HΦ, Ho, ⟨%d0, H0⟩, ⟨%d1, H1⟩, ⟨%d2, H2⟩, ⟨%d3, H3⟩⟩
  ihave ⟨HS, Hg⟩ := (acc_at_anything m c t) $$ HΦ
  iapply ((runTileStart c (grid0.coords t) _ _ _ _ _ _ _ _ _ _ hs he hn (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%eo, H3⟩, ⟨%es, HS⟩⟩
  isplitl [HS Hg]
  · isplitl [HS]
    · unfold owns; iexists _; isplitr
      swap; · iexact HS
      ipureintro; exact View.read_writes_of_cover _ _ _ _ _ (tileStart_acc_covers c _ _ _ _ _ _ _ _ _ _ _ _ _ _ _ _ _)
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (tileStart_out_covers c _ _ _ _ _ _ _ _ _ _ _ _ _ _ _ _ _)

set_option maxHeartbeats 1600000 in
/-- A later expert opens: the accumulator is overwritten, the output tile left alone. -/
theorem body_expertStart (c : Dev nD) (t : Fin cfg0.N) (h0 : ¬t.val % 32 = 0) (h1 : t.val % 8 = 0) :
    bodyPre m c t ⊢ wp frame (wpE (defs₀ (F := F)) Variants.none c none) Set.univ (bodyAt0 t) (fun _ => bodyPost m c t) := by
  have hN : t.val < 512 := lt_of_lt_of_eq t.isLt (show cfg0.N = 512 from N_0)
  have hs : ¬atTileStart (grid0.coords t) := fun h => h0 ((atTileStart_iff t).mp h)
  have he := (atExpertStart_iff t).mpr h1
  have hn : ¬atExpertEnd (grid0.coords t) := fun h => by have := (atExpertEnd_iff t).mp h; omega
  unfold bodyPre bodyPost bodyAt0
  simp only [found_x, found_w, found_idx]
  rw [show (dats m 0 c).owesAt () t.succ = (dats m 0 c).owesAt () t.castSucc from rfl]
  rw [show (dats m 0 c).Φ t.succ = between m c (t.val + 1) t.isLt from rfl, between_succ]
  rw [leaves_x, leaves_w, leaves_idx]
  rw [leaves_out_idle m c t h0 (by omega), acc_expertStart m c t h0 h1 hs he hn]
  unfold expertStartAcc
  iintro ⟨HΦ, Ho, ⟨%d0, H0⟩, ⟨%d1, H1⟩, ⟨%d2, H2⟩, ⟨%d3, H3⟩⟩
  ihave ⟨HS, Hg⟩ := (acc_at_anything m c t) $$ HΦ
  iapply ((runExpertStart c (grid0.coords t) _ _ _ _ _ _ _ _ _ _ hs he hn (iblk m c 0 t) (iblk m c 1 t) (iblk m c 2 t)).2 _ Set.univ _)
  isplitl [H0]; · iexact H0
  isplitl [H1]; · iexact H1
  isplitl [H2]; · iexact H2
  isplitl [H3]; · iexact H3
  isplitl [HS]; · iexact HS
  iintro ⟨H0, H1, H2, H3, ⟨%es, HS⟩⟩
  isplitl [HS Hg]
  · isplitl [HS]
    · unfold owns; iexists _; isplitr
      swap; · iexact HS
      ipureintro; exact View.read_writes_of_cover _ _ _ _ _ (expertStart_acc_covers c _ _ _ _ _ _ _ _ _ _ _ _ _ _ _ _ _)
    iexact Hg
  isplitl [Ho]; · iexact Ho
  isplitl [H0]; · iexact H0
  isplitl [H1]; · iexact H1
  isplitl [H2]; · iexact H2
  iexists _; iexact H3

set_option maxHeartbeats 1600000 in
/-- An expert closes: the accumulator grows, and the output tile takes its masked copy on top of what it held. -/
theorem body_expertEnd (c : Dev nD) (t : Fin cfg0.N) (h0 : ¬t.val % 32 = 0) (h1 : ¬t.val % 8 = 0) (h2 : t.val % 8 = 7) :
    bodyPre m c t ⊢ wp frame (wpE (defs₀ (F := F)) Variants.none c none) Set.univ (bodyAt0 t) (fun _ => bodyPost m c t) := by
  have hs : ¬atTileStart (grid0.coords t) := fun h => h0 ((atTileStart_iff t).mp h)
  have he : ¬atExpertStart (grid0.coords t) := fun h => h1 ((atExpertStart_iff t).mp h)
  have hn := (atExpertEnd_iff t).mpr h2
  have hz : t.val ≠ 0 := fun hz => h0 (by rw [hz])
  unfold bodyPre bodyPost bodyAt0
  simp only [found_x, found_w, found_idx]
  rw [show (dats m 0 c).owesAt () t.succ = (dats m 0 c).owesAt () t.castSucc from rfl]
  rw [show (dats m 0 c).Φ t.succ = between m c (t.val + 1) t.isLt from rfl, between_succ]
  rw [leaves_x, leaves_w, leaves_idx]
  rw [between_castSucc m c t, between_later m c _ _ hz]
  rw [leaves_out_live m c t (.inr h2), out_expertEnd m c t h0 h1 h2 hs he hn, acc_expertEnd m c t h0 h1 h2 hs he hn]
  simp only [out_found m c t.val t.isLt h0]
  unfold expertEndOut expertEndAcc
  iintro ⟨⟨HS, Hg⟩, Ho, ⟨%d0, H0⟩, ⟨%d1, H1⟩, ⟨%d2, H2⟩, ⟨%d3, H3⟩⟩
  iapply ((runExpertEnd c (grid0.coords t) _ _ _ _ _ _ _ _ _ _ hs he hn (iblk m c 0 t) (iblk m c 1 t) (iblk m c 2 t) _ _).2.2 Set.univ _)
  isplitl [H0]; · iexact H0
  isplitl [H1]; · iexact H1
  isplitl [H2]; · iexact H2
  isplitl [H3]; · iexact H3
  isplitl [HS]; · iexact HS
  iintro ⟨H0, H1, H2, ⟨%eo, H3⟩, ⟨%es, HS⟩⟩
  isplitl [HS Hg]
  · isplitl [HS]
    · unfold owns; iexists _; isplitr
      swap; · iexact HS
      ipureintro; exact View.read_writes_of_cover _ _ _ _ _ (expertEnd_acc_covers c _ _ _ _ _ _ _ _ _ _ _ _ _ _ _ _ _ _ _)
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (expertEnd_out_covers c _ _ _ _ _ _ _ _ _ _ _ _ _ _ _ _ _ _ _)

set_option maxHeartbeats 1600000 in
/-- The middle of a reduction: the accumulator grows, the output tile is left alone. -/
theorem body_middle (c : Dev nD) (t : Fin cfg0.N) (h0 : ¬t.val % 32 = 0) (h1 : ¬t.val % 8 = 0) (h2 : ¬t.val % 8 = 7) :
    bodyPre m c t ⊢ wp frame (wpE (defs₀ (F := F)) Variants.none c none) Set.univ (bodyAt0 t) (fun _ => bodyPost m c t) := by
  have hs : ¬atTileStart (grid0.coords t) := fun h => h0 ((atTileStart_iff t).mp h)
  have he : ¬atExpertStart (grid0.coords t) := fun h => h1 ((atExpertStart_iff t).mp h)
  have hn : ¬atExpertEnd (grid0.coords t) := fun h => h2 ((atExpertEnd_iff t).mp h)
  have hz : t.val ≠ 0 := fun hz => h0 (by rw [hz])
  unfold bodyPre bodyPost bodyAt0
  simp only [found_x, found_w, found_idx]
  rw [show (dats m 0 c).owesAt () t.succ = (dats m 0 c).owesAt () t.castSucc from rfl]
  rw [show (dats m 0 c).Φ t.succ = between m c (t.val + 1) t.isLt from rfl, between_succ]
  rw [leaves_x, leaves_w, leaves_idx]
  rw [between_castSucc m c t, between_later m c _ _ hz]
  rw [leaves_out_idle m c t h0 h2, acc_middle m c t h0 h1 h2 hs he hn]
  unfold middleAcc
  iintro ⟨⟨HS, Hg⟩, Ho, ⟨%d0, H0⟩, ⟨%d1, H1⟩, ⟨%d2, H2⟩, ⟨%d3, H3⟩⟩
  iapply ((runMiddle c (grid0.coords t) _ _ _ _ _ _ _ _ _ _ hs he hn (iblk m c 0 t) (iblk m c 1 t) (iblk m c 2 t) _).2 _ Set.univ _)
  isplitl [H0]; · iexact H0
  isplitl [H1]; · iexact H1
  isplitl [H2]; · iexact H2
  isplitl [H3]; · iexact H3
  isplitl [HS]; · iexact HS
  iintro ⟨H0, H1, H2, H3, ⟨%es, HS⟩⟩
  isplitl [HS Hg]
  · isplitl [HS]
    · unfold owns; iexists _; isplitr
      swap; · iexact HS
      ipureintro; exact View.read_writes_of_cover _ _ _ _ _ (middle_acc_covers c _ _ _ _ _ _ _ _ _ _ _ _ _ _ _ _ _ _)
    iexact Hg
  isplitl [Ho]; · iexact Ho
  isplitl [H0]; · iexact H0
  isplitl [H1]; · iexact H1
  isplitl [H2]; · iexact H2
  iexists _; iexact H3

theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact body_tileStart m c t h0
  · by_cases h1 : t.val % 8 = 0
    · exact body_expertStart m c t h0 h1
    · by_cases h2 : t.val % 8 = 7
      · exact body_expertEnd m c t h0 h1 h2
      · exact body_middle m c t h0 h1 h2

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Frame.lean ====
/-
  The frame of `KernelIdeal`: every fair execution ends, nothing faults, the argument arrays end as they were launched —
  with every windowed array named at the end (the result array among them: what the write-backs of the output tile
  make of it).
-/
import proofs.«125423_j28973849379120_1_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the invariant is what the launch lends; -/
theorem lend (c : Dev nD) : Pipeline.ΦA spec0 c ⊢ (dats m 0 c).Φ 0 := by
  rw [show (dats m 0 c).Φ 0 = between m c 0 (Nat.zero_le _) from rfl, between_first m c 0 _ rfl]
  try exact Idealize.SL.BI.Entails.refl _

/-- after the last it gives that back, the accumulator's contents forgotten. -/
theorem give_back (c : Dev nD) : (dats m 0 c).Φ (Fin.last cfg0.N) ⊢ Pipeline.ΦA spec0 c := by
  have hne : (Fin.last cfg0.N).val ≠ 0 := by rw [Fin.val_last]; have : cfg0.N = 512 := N_0; omega
  rw [show (dats m 0 c).Φ (Fin.last cfg0.N) = between m c (Fin.last cfg0.N).val (Nat.le_of_lt_succ (Fin.last cfg0.N).isLt) from rfl,
    between_later m c _ _ hne, scratch_and_prng]
  iintro ⟨HS, Hg⟩
  isplitl [HS]
  · iexists _; iexact HS
  iexact Hg

set_option backward.isDefEq.respectTransparency.types false in
/-- Every fair execution of the program ends without a fault; each windowed array ends at what the write-backs
    make of it, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := lend m) (hout := give_back m)

/-- The argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KI.Final.lean ====
/-
  The result array after the run is the routed matmul of the three argument arrays.

  The output tile is written back at the last point of each (token tile, output tile) pair — points ≡ 31 (mod 32) —,
  when all four experts have been added: the tile then holds `outAfter R O 4`, which is `routed` at (R, O).  The
  sixteen written-back tiles cover the 4096 × 4096 result.
-/
import proofs.«125423_j28973849379120_1_alg».proof.Proof.KI.Invariant
import proofs.«125423_j28973849379120_1_alg».proof.Proof.KI.Frame

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open Cert.RoutedSpec

variable (m : (ℓ : Loc nD τ sig) → Buf (Elt Ideal) ℓ) (ρ : Dev nD → PrngReg)

/-- The routed matmul of the launched arrays, as contents of the result array. -/
abbrev result (c : Dev nD) : S4096x4096.Idx → EReal := routed (argX m c) (argW m c) (argRoute m c)

/-- What a write-back writes is the corresponding tile of the result. -/
theorem out_flushed (c : Dev nD) (t : Fin cfg0.N) (hf : (cfg0.win 3).flush t = true) :
    (dats m 0 c).flushed 3 t = ((cfg0.win 3).blk t).view.read (Elt Ideal) (result m c) := by
  have h31 : t.val % 32 = 31 := (flush0_3 t).mp hf
  have hN : t.val < 512 := lt_of_lt_of_eq t.isLt (show cfg0.N = 512 from N_0)
  show (cfg0.win 3).cut (grid0.coords t) ((dats m 0 c).after 3 t) = _
  rw [after_out]
  refine funext fun (j : S1024x1024.Idx) => ?_
  obtain ⟨r, o, rfl⟩ : ∃ (r o : Fin 1024), j = ix2 r o := ⟨j 0, j 1, eq_ix2 j⟩
  have hr := r.isLt
  have ho := o.isLt
  show (carried m c t.val t.isLt).1 (ix2 r o) = result m c (((cfg0.win 3).blk t).view.emb (ix2 r o))
  have hemb : ((cfg0.win 3).blk t).view.emb (ix2 r o)
      = ix2 (⟨1024 * (t.val / 128) + r.val, by omega⟩ : Fin 4096) (⟨1024 * (t.val / 32 % 4) + o.val, by omega⟩ : Fin 4096) :=
    funext fun a => Fin.ext (by
      match a with
      | ⟨0, _⟩ => show win0_3.index t (0 : Fin 2) * 1024 + 1 * r.val = 1024 * (t.val / 128) + r.val; rw [(out_index t).1]; omega
      | ⟨1, _⟩ => show win0_3.index t (1 : Fin 2) * 1024 + 1 * o.val = 1024 * (t.val / 32 % 4) + o.val; rw [(out_index t).2]; omega)
  rw [hemb, out_value m c t.val t.isLt r o, if_pos (by omega), show t.val / 8 % 4 + 1 = 4 from by omega]
  rfl

theorem mem_out_tile (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every element of the result lies in the tile some write-back writes. -/
theorem out_cover (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have hlt : 32 * (4 * ((i 0).val / 1024) + (i 1).val / 1024) + 31 < cfg0.N := by rw [show cfg0.N = 512 from N_0]; omega
  refine ⟨⟨32 * (4 * ((i 0).val / 1024) + (i 1).val / 1024) + 31, hlt⟩, (flush0_3 _).mpr (by dsimp only; omega), ?_⟩
  rw [mem_out_tile]
  intro a
  match a with
  | ⟨0, _⟩ =>
    show win0_3.index ⟨32 * (4 * ((i 0).val / 1024) + (i 1).val / 1024) + 31, hlt⟩ (0 : Fin 2) * 1024 ≤ (i 0).val
      ∧ (i 0).val < win0_3.index ⟨32 * (4 * ((i 0).val / 1024) + (i 1).val / 1024) + 31, hlt⟩ (0 : Fin 2) * 1024 + 1024
    rw [(out_index _).1]; dsimp only; omega
  | ⟨1, _⟩ =>
    show win0_3.index ⟨32 * (4 * ((i 0).val / 1024) + (i 1).val / 1024) + 31, hlt⟩ (1 : Fin 2) * 1024 ≤ (i 1).val
      ∧ (i 1).val < win0_3.index ⟨32 * (4 * ((i 0).val / 1024) + (i 1).val / 1024) + 31, hlt⟩ (1 : Fin 2) * 1024 + 1024
    rw [(out_index _).2]; dsimp only; omega

/-- So the result array ends at the routed matmul. -/
theorem out_final (c : Dev nD) : (dats m 0 c).arrAt 3 cfg0.N = result m c :=
  (dats m 0 c).arrAt_eq_of_cover 3 (result m c) (out_flushed m c) out_cover

/-- The run, read: the result array at the routed matmul, the arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (out_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Hand

end
-- ==== Proof.RefSide.lean ====
/-
  The untiled program's result, element by element, is the function `routed` of Spec.lean: each of its four
  rounds compares the routing vector with the expert's number, turns the bit into 0/1, takes the full dot product of
  the token's features with that expert's output row (the expert's matrix sliced out of the stack and flattened), and
  adds mask · dot onto the running result, which starts at zero.
-/
import proofs.«125423_j28973849379120_1_alg».proof.Defs
import proofs.«125423_j28973849379120_1_alg».proof.Proof.Gen.ReferenceIdeal.Read
import proofs.«125423_j28973849379120_1_alg».proof.Proof.Spec

noncomputable section

namespace Cert.ReferenceIdeal.Routed

open Cert.ReferenceIdeal Cert.ReferenceIdeal.Read Idealize.ShloMosaic Idealize.ShloMosaic.ValueIdx

/-- The token a mask column entry belongs to. -/
theorem route_idx_0 (R O : Fin 4096) : idx_main_v3 (idx_main_v8 (ix2 R O)) = ix1 R :=
  funext fun a => Fin.ext (by match a with | ⟨0, _⟩ => rfl)
theorem route_idx_1 (R O : Fin 4096) : idx_main_v13 (idx_main_v18 (ix2 R O)) = ix1 R :=
  funext fun a => Fin.ext (by match a with | ⟨0, _⟩ => rfl)
theorem route_idx_2 (R O : Fin 4096) : idx_main_v23 (idx_main_v28 (ix2 R O)) = ix1 R :=
  funext fun a => Fin.ext (by match a with | ⟨0, _⟩ => rfl)
theorem route_idx_3 (R O : Fin 4096) : idx_main_v33 (idx_main_v38 (ix2 R O)) = ix1 R :=
  funext fun a => Fin.ext (by match a with | ⟨0, _⟩ => rfl)

/-- The left factor of the dot product at feature `k`: the token's row of x. -/
theorem x_idx_0 (R O k : Fin 4096) : lidx_main_v7 (ix2 R O) k = ix2 R k :=
  funext fun a => Fin.ext (by match a with | ⟨0, _⟩ => rfl | ⟨1, _⟩ => rfl)
theorem x_idx_1 (R O k : Fin 4096) : lidx_main_v17 (ix2 R O) k = ix2 R k :=
  funext fun a => Fin.ext (by match a with | ⟨0, _⟩ => rfl | ⟨1, _⟩ => rfl)
theorem x_idx_2 (R O k : Fin 4096) : lidx_main_v27 (ix2 R O) k = ix2 R k :=
  funext fun a => Fin.ext (by match a with | ⟨0, _⟩ => rfl | ⟨1, _⟩ => rfl)
theorem x_idx_3 (R O k : Fin 4096) : lidx_main_v37 (ix2 R O) k = ix2 R k :=
  funext fun a => Fin.ext (by match a with | ⟨0, _⟩ => rfl | ⟨1, _⟩ => rfl)

/-- The right factor: the expert's matrix is slice `e` of the stack, flattened to [4096, 4096] — row = output, column = feature. -/
theorem w_idx_0 (R O k : Fin 4096) :
    idx_main_v5 (idx_main_v6 (ridx_main_v7 (ix2 R O) k)) = ix3 (0 : Fin 4) O k := by
  have h1 : O.val < 4096 := O.isLt
  have hk : k.val < 4096 := k.isLt
  exact funext fun a => Fin.ext (by
    match a with
    | ⟨0, _⟩ => rfl
    | ⟨1, _⟩ => show (O.val * 4096 + k.val) / 4096 % 4096 = O.val; omega
    | ⟨2, _⟩ => show (O.val * 4096 + k.val) % 4096 = k.val; omega)
theorem w_idx_1 (R O k : Fin 4096) :
    idx_main_v15 (idx_main_v16 (ridx_main_v17 (ix2 R O) k)) = ix3 (1 : Fin 4) O k := by
  have h1 : O.val < 4096 := O.isLt
  have hk : k.val < 4096 := k.isLt
  exact funext fun a => Fin.ext (by
    match a with
    | ⟨0, _⟩ => rfl
    | ⟨1, _⟩ => show (O.val * 4096 + k.val) / 4096 % 4096 = O.val; omega
    | ⟨2, _⟩ => show (O.val * 4096 + k.val) % 4096 = k.val; omega)
theorem w_idx_2 (R O k : Fin 4096) :
    idx_main_v25 (idx_main_v26 (ridx_main_v27 (ix2 R O) k)) = ix3 (2 : Fin 4) O k := by
  have h1 : O.val < 4096 := O.isLt
  have hk : k.val < 4096 := k.isLt
  exact funext fun a => Fin.ext (by
    match a with
    | ⟨0, _⟩ => rfl
    | ⟨1, _⟩ => show (O.val * 4096 + k.val) / 4096 % 4096 = O.val; omega
    | ⟨2, _⟩ => show (O.val * 4096 + k.val) % 4096 = k.val; omega)
theorem w_idx_3 (R O k : Fin 4096) :
    idx_main_v35 (idx_main_v36 (ridx_main_v37 (ix2 R O) k)) = ix3 (3 : Fin 4) O k := by
  have h1 : O.val < 4096 := O.isLt
  have hk : k.val < 4096 := k.isLt
  exact funext fun a => Fin.ext (by
    match a with
    | ⟨0, _⟩ => rfl
    | ⟨1, _⟩ => show (O.val * 4096 + k.val) / 4096 % 4096 = O.val; omega
    | ⟨2, _⟩ => show (O.val * 4096 + k.val) % 4096 = k.val; omega)

theorem result_is_routed (x0 : (⟨S4096x4096, .f32⟩ : BufTy).Contents (Elt Ideal)) (x1 : (⟨S4x4096x4096, .f32⟩ : BufTy).Contents (Elt Ideal))
    (x2 : (⟨S4096, .i32⟩ : BufTy).Contents (Elt Ideal)) :
    val_main_v40 (F := Ideal) x0 x1 x2 = Cert.RoutedSpec.routed x0 x1 x2 := by
  funext y
  obtain ⟨R, O, rfl⟩ : ∃ (R O : Fin 4096), y = ix2 R O := ⟨y 0, y 1, eq_ix2 y⟩
  rw [Cert.RoutedSpec.routed_apply]
  simp only [val_main_v40_apply, val_main_v30_apply, val_main_v20_apply, val_main_v10_apply,
    val_main_v0_apply, val_main_cst_apply,
    val_main_v9_apply, val_main_v8_apply, val_main_v4_apply, val_main_v3_apply, val_main_v2_apply, val_main_v1_apply, val_main_c_apply, val_main_v7_apply, val_main_v6_apply, val_main_v5_apply,
    route_idx_0, x_idx_0, w_idx_0,
    val_main_v19_apply, val_main_v18_apply, val_main_v14_apply, val_main_v13_apply, val_main_v12_apply, val_main_v11_apply, val_main_c_0_apply, val_main_v17_apply, val_main_v16_apply, val_main_v15_apply,
    route_idx_1, x_idx_1, w_idx_1,
    val_main_v29_apply, val_main_v28_apply, val_main_v24_apply, val_main_v23_apply, val_main_v22_apply, val_main_v21_apply, val_main_c_1_apply, val_main_v27_apply, val_main_v26_apply, val_main_v25_apply,
    route_idx_2, x_idx_2, w_idx_2,
    val_main_v39_apply, val_main_v38_apply, val_main_v34_apply, val_main_v33_apply, val_main_v32_apply, val_main_v31_apply, val_main_c_2_apply, val_main_v37_apply, val_main_v36_apply, val_main_v35_apply,
    route_idx_3, x_idx_3, w_idx_3]
  rw [show (FloatOps.ofBits (F := Ideal) .f32 0#32 : EReal) = 0 from Ideal.ofBits_zero_f32]
  rfl

end Cert.ReferenceIdeal.Routed

end
-- ==== Proof.lean ====
/-
  A routed matmul: each of 4096 tokens is sent to one of four experts, and its 4096 output features are the dot
  products of its 4096 input features with that expert's weight rows —

      out (R, O) = Σ_e [route R = e] · Σ_j x (R, j) · w (e, O, j),

  written as four dense products combined under 0/1 masks, the masked terms added onto zero in expert order.

  The kernel tiles this: for each 1024 × 1024 tile of the result it runs over the four experts and, per expert, over
  eight blocks of 512 input features, adding each block's product into an accumulator; after an expert's last block
  the accumulator, masked by the routing column, is added to the output tile; the tile is written back after the
  fourth expert.  The reference computes the four full products and combines them.

  Over the extended reals the two agree element by element: the accumulator after eight blocks is the full dot
  product, because splitting a finite sum into consecutive runs only uses associativity and commutativity of
  addition (Spec.lean, `accAfter_seven`); the masks and the order of the four masked additions are the same on both
  sides.  No product is distributed over a sum, so the inputs' finiteness is not used.

  The frames (every fair execution ends, nothing faults, the arguments are untouched) of the kernel at both
  instances come from one proof of the kernel body, written generically in the float instance (K/ and KI/: the four
  kinds of grid point, what they leave in the two buffers carried between points, the pipeline's proof data, the body
  obligation).  The value of the idealized kernel's result is read off that proof data (KI/PieceValues, KI/Pointwise,
  KI/Blocks, KI/Invariant, KI/Final); the reference's result is read off its generated run (RefSide.lean).
-/
import proofs.«125423_j28973849379120_1_alg».proof.Defs
import proofs.«125423_j28973849379120_1_alg».proof.Proof.Gen.Kernel
import proofs.«125423_j28973849379120_1_alg».proof.Proof.Gen.KernelIdeal
import proofs.«125423_j28973849379120_1_alg».proof.Proof.Gen.ReferenceIdeal
import proofs.«125423_j28973849379120_1_alg».proof.Proof.Gen.Pre_finite_inputs
import proofs.«125423_j28973849379120_1_alg».proof.Proof.Gen.ReferenceIdeal.Run
import proofs.«125423_j28973849379120_1_alg».proof.Proof.K.Frame
import proofs.«125423_j28973849379120_1_alg».proof.Proof.KI.Final
import proofs.«125423_j28973849379120_1_alg».proof.Proof.RefSide
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the routed matmul of the (agreeing) arguments in their result arrays. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.Routed.result_is_routed, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
